-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S2048x4096 : Shape := ⟨2, ![2048, 4096]⟩
abbrev S4096 : Shape := ⟨1, ![4096]⟩
abbrev S4096x2048 : Shape := ⟨2, ![4096, 2048]⟩
abbrev S2048 : Shape := ⟨1, ![2048]⟩
abbrev S2048x4 : Shape := ⟨2, ![2048, 4]⟩
abbrev S4 : Shape := ⟨1, ![4]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S2048x4 : S_.BroadcastsInDim S2048x4 (![] : Fin 0 → Fin S2048x4.rank)
  reducesTo_S2048x4_S_d0_1 : S2048x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S2048 .f32) (main_arg8 : FVec F S2048x4 .f32) (main_arg9 : FVec F S4 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x4 .f32 := Host.absf main_arg8
  let main_cst_14 : FVec F S_ .f32 := constant S_ .f32 0x7F800000#32
  let main_v40 : FVec F S2048x4 .f32 := broadcastInDim S2048x4 ![] bcast_S_S2048x4 main_cst_14
  let main_v41 : IVec S2048x4 1 := cmpf .olt main_v39 main_v40
  let main_c_15 : IVec S_ 1 := constantI S_ 1 1#1
  let main_v42 : IVec S_ 1 := (fun x v => Host.reduce IntOp.andi x v reducesTo_S2048x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  main_v48

def fn_part1 {F : FTy → Type} [FloatOps F] (main_arg4 : FVec F S4096 .f32) (main_arg5 : FVec F S4096 .f32) (main_arg6 : FVec F S4096x2048 .f32) (main_arg7 : FVec F S2048 .f32) (main_arg8 : FVec F S2048x4 .f32) (main_arg9 : FVec F S4 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S32768x1024 .f32) (main_arg1 : FVec F S32768x1024 .f32) (main_arg2 : FVec F S2048x4096 .f32) (main_arg3 : FVec F S4096 .f32) (main_arg4 : FVec F S4096 .f32) (main_arg5 : FVec F S4096 .f32) (main_arg6 : FVec F S4096x2048 .f32) (main_arg7 : FVec F S2048 .f32) (main_arg8 : FVec F S2048x4 .f32) (main_arg9 : FVec F S4 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S32768x1024 : Shape := ⟨2, ![32768, 1024]⟩
abbrev S2048x4096 : Shape := ⟨2, ![2048, 4096]⟩
abbrev S4096 : Shape := ⟨1, ![4096]⟩
abbrev S4096x2048 : Shape := ⟨2, ![4096, 2048]⟩
abbrev S2048 : Shape := ⟨1, ![2048]⟩
abbrev S2048x4 : Shape := ⟨2, ![2048, 4]⟩
abbrev S4 : Shape := ⟨1, ![4]⟩
abbrev S_ : Shape := ⟨0, ![]⟩
abbrev S2048x128 : Shape := ⟨2, ![2048, 128]⟩
abbrev S1 : Shape := ⟨1, ![1]⟩
abbrev S128 : Shape := ⟨1, ![128]⟩
abbrev S32768x2048 : Shape := ⟨2, ![32768, 2048]⟩
abbrev S32768x128 : Shape := ⟨2, ![32768, 128]⟩
abbrev S128x1024 : Shape := ⟨2, ![128, 1024]⟩
abbrev S128x2048 : Shape := ⟨2, ![128, 2048]⟩
abbrev S128x128 : Shape := ⟨2, ![128, 128]⟩
abbrev S128x4096 : Shape := ⟨2, ![128, 4096]⟩
abbrev S1x4096 : Shape := ⟨2, ![1, 4096]⟩
abbrev S128x1 : Shape := ⟨2, ![128, 1]⟩
abbrev S1x2048 : Shape := ⟨2, ![1, 2048]⟩
abbrev S1x128 : Shape := ⟨2, ![1, 128]⟩
abbrev S32768x4 : Shape := ⟨2, ![32768, 4]⟩

abbrev nBuf : Space → Nat
  | .hbm => 26
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2048x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S2048x4096, .bf16⟩
  | .hbm, ⟨11, _⟩ => ⟨S4096x2048, .bf16⟩
  | .hbm, ⟨12, _⟩ => ⟨S_, .f32⟩
  | .hbm, ⟨13, _⟩ => ⟨S2048x128, .f32⟩
  | .hbm, ⟨14, _⟩ => ⟨S_, .i32⟩
  | .hbm, ⟨15, _⟩ => ⟨S1, .i32⟩
  | .hbm, ⟨16, _⟩ => ⟨S2048x128, .f32⟩
  | .hbm, ⟨17, _⟩ => ⟨S_, .f32⟩
  | .hbm, ⟨18, _⟩ => ⟨S128, .f32⟩
  | .hbm, ⟨19, _⟩ => ⟨S_, .i32⟩
  | .hbm, ⟨20, _⟩ => ⟨S1, .i32⟩
  | .hbm, ⟨21, _⟩ => ⟨S128, .f32⟩
  | .hbm, ⟨22, _⟩ => ⟨S2048x128, .bf16⟩
  | .hbm, ⟨23, _⟩ => ⟨S32768x2048, .f32⟩
  | .hbm, ⟨24, _⟩ => ⟨S32768x128, .f32⟩
  | .hbm, ⟨25, _⟩ => ⟨S32768x4, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S2048x4096, .bf16⟩
  | .local _ .vmem, ⟨5, _⟩ => ⟨S4096, .f32⟩
  | .local _ .vmem, ⟨6, _⟩ => ⟨S4096, .f32⟩
  | .local _ .vmem, ⟨7, _⟩ => ⟨S4096, .f32⟩
  | .local _ .vmem, ⟨8, _⟩ => ⟨S4096x2048, .bf16⟩
  | .local _ .vmem, ⟨9, _⟩ => ⟨S2048, .f32⟩
  | .local _ .vmem, ⟨10, _⟩ => ⟨S2048x128, .bf16⟩
  | .local _ .vmem, ⟨11, _⟩ => ⟨S128, .f32⟩
  | .local _ .vmem, ⟨12, _⟩ => ⟨S128x2048, .f32⟩
  | .local _ .vmem, ⟨13, _⟩ => ⟨S128x2048, .f32⟩
  | .local _ .vmem, ⟨14, _⟩ => ⟨S128x128, .f32⟩
  | .local _ .vmem, ⟨15, _⟩ => ⟨S128x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  bcast_S_S2048x128 : S_.BroadcastsInDim S2048x128 (![] : Fin 0 → Fin S2048x128.rank)
  bcast_S_S1 : S_.BroadcastsInDim S1 (![] : Fin 0 → Fin S1.rank)
  bcast_S_S128 : S_.BroadcastsInDim S128 (![] : Fin 0 → Fin S128.rank)
  inb_S128x1024_S128x1024_0_0 : ∀ a, (![0, 0] : Fin 2 → Nat) a + S128x1024.size a ≤ S128x1024.size a
  h_S128x1024 : 0 < S128x1024.numel
  concatenates_S128x1024_S128x1024_S128x2048_d1 : Shape.Concatenates [S128x1024, S128x1024] S128x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  reduces_S128x4096_S128 : S128x4096.Reduces [1] S128
  shapeCasts_S128_S128x1 : S128.ShapeCasts S128x1
  broadcasts_S128x1_S128x4096 : S128x1.Broadcasts S128x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  slices_S32768x128_S32768x4_0_0 : S32768x128.Slices ![0, 0] S32768x4
  scatter_S2048x128_S1_S2048x4_01_n_1_0_wf : ScatterDims.WF S2048x128 S1 S2048x4 [0, 1] [] [1] 0
  scatter_S128_S1_S4_0_n_0_0_wf : ScatterDims.WF S128 S1 S4 [0] [] [0] 0
  dot_S128x2048_S2048x4096_S128x4096_1_0_0_1_n_n_wf : DotDims.WF S128x2048 S2048x4096 S128x4096 [1] [0] [0] [1] [] []
  dot_S128x4096_S4096x2048_S128x2048_1_0_0_1_n_n_wf : DotDims.WF S128x4096 S4096x2048 S128x2048 [1] [0] [0] [1] [] []
  dot_S128x2048_S2048x128_S128x128_1_0_0_1_n_n_wf : DotDims.WF S128x2048 S2048x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S32768x1024.size a
  hwx0_0 : ∀ i : grid0.Coords, EltTy.bits .f32 = 32 ∨ (Rect.block (s := S32768x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S32768x1024.size a
  hwx0_1 : ∀ i : grid0.Coords, EltTy.bits .f32 = 32 ∨ (Rect.block (s := S32768x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x4096.size a ≤ S2048x4096.size a
  hwx0_2 : ∀ i : grid0.Coords, EltTy.bits .bf16 = 32 ∨ (Rect.block (s := S2048x4096) S2048x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x2048.size a ≤ S4096x2048.size a
  hwx0_6 : ∀ i : grid0.Coords, EltTy.bits .bf16 = 32 ∨ (Rect.block (s := S4096x2048) S4096x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S2048x128.size a
  hwx0_8 : ∀ i : grid0.Coords, EltTy.bits .bf16 = 32 ∨ (Rect.block (s := S2048x128) S2048x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S32768x2048.size a
  hwx0_10 : ∀ i : grid0.Coords, EltTy.bits .f32 = 32 ∨ (Rect.block (s := S32768x2048) S128x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S32768x128.size a
  hwx0_11 : ∀ i : grid0.Coords, EltTy.bits .f32 = 32 ∨ (Rect.block (s := S32768x128) S128x128.size (cc0_transform_11 i) (hinb0_11 i)).WholeWords (EltTy.packing .f32)

variable [Facts₀]

def scatter_S2048x128_S1_S2048x4_01_n_1_0 : ScatterDims S2048x128 S1 S2048x4 where
  updateWindowDims := [0, 1]
  insertedWindowDims := []
  scatterDimsToOperandDims := [1]
  indexVectorDim := 0
  wf := scatter_S2048x128_S1_S2048x4_01_n_1_0_wf
def scatter_S128_S1_S4_0_n_0_0 : ScatterDims S128 S1 S4 where
  updateWindowDims := [0]
  insertedWindowDims := []
  scatterDimsToOperandDims := [0]
  indexVectorDim := 0
  wf := scatter_S128_S1_S4_0_n_0_0_wf
def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf
def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S4096x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S2048x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9_0) S128x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_1) S128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S2048x4096 : Shape := ⟨2, ![2048, 4096]⟩
abbrev S4096 : Shape := ⟨1, ![4096]⟩
abbrev S4096x2048 : Shape := ⟨2, ![4096, 2048]⟩
abbrev S2048 : Shape := ⟨1, ![2048]⟩
abbrev S2048x4 : Shape := ⟨2, ![2048, 4]⟩
abbrev S4 : Shape := ⟨1, ![4]⟩
abbrev S32768x2048 : Shape := ⟨2, ![32768, 2048]⟩
abbrev S32768x4096 : Shape := ⟨2, ![32768, 4096]⟩
abbrev S1x4096 : Shape := ⟨2, ![1, 4096]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x4 : Shape := ⟨2, ![32768, 4]⟩
abbrev S1x4 : Shape := ⟨2, ![1, 4]⟩

abbrev nBuf : Space → Nat
  | .hbm => 64
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2048x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S32768x2048, .f32⟩
  | .hbm, ⟨11, _⟩ => ⟨S32768x4096, .f32⟩
  | .hbm, ⟨12, _⟩ => ⟨S1x4096, .f32⟩
  | .hbm, ⟨13, _⟩ => ⟨S32768x4096, .f32⟩
  | .hbm, ⟨14, _⟩ => ⟨S32768x4096, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x4096, .f32⟩
  | .hbm, ⟨22, _⟩ => ⟨S32768x4096, .f32⟩
  | .hbm, ⟨23, _⟩ => ⟨S32768x4096, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x4096, .f32⟩
  | .hbm, ⟨31, _⟩ => ⟨S32768x4096, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x4096, .f32⟩
  | .hbm, ⟨37, _⟩ => ⟨S32768x4096, .f32⟩
  | .hbm, ⟨38, _⟩ => ⟨S1x4096, .f32⟩
  | .hbm, ⟨39, _⟩ => ⟨S32768x4096, .f32⟩
  | .hbm, ⟨40, _⟩ => ⟨S32768x4096, .f32⟩
  | .hbm, ⟨41, _⟩ => ⟨S1x4096, .f32⟩
  | .hbm, ⟨42, _⟩ => ⟨S32768x4096, .f32⟩
  | .hbm, ⟨43, _⟩ => ⟨S32768x4096, .f32⟩
  | .hbm, ⟨44, _⟩ => ⟨S_, .f32⟩
  | .hbm, ⟨45, _⟩ => ⟨S32768x4096, .f32⟩
  | .hbm, ⟨46, _⟩ => ⟨S32768x4096, .f32⟩
  | .hbm, ⟨47, _⟩ => ⟨S32768x2048, .f32⟩
  | .hbm, ⟨48, _⟩ => ⟨S1x2048, .f32⟩
  | .hbm, ⟨49, _⟩ => ⟨S32768x2048, .f32⟩
  | .hbm, ⟨50, _⟩ => ⟨S32768x2048, .f32⟩
  | .hbm, ⟨51, _⟩ => ⟨S32768x2048, .f32⟩
  | .hbm, ⟨52, _⟩ => ⟨S32768x2048, .f32⟩
  | .hbm, ⟨53, _⟩ => ⟨S_, .f32⟩
  | .hbm, ⟨54, _⟩ => ⟨S32768x2048, .f32⟩
  | .hbm, ⟨55, _⟩ => ⟨S32768x2048, .f32⟩
  | .hbm, ⟨56, _⟩ => ⟨S_, .f32⟩
  | .hbm, ⟨57, _⟩ => ⟨S32768x2048, .f32⟩
  | .hbm, ⟨58, _⟩ => ⟨S32768x2048, .f32⟩
  | .hbm, ⟨59, _⟩ => ⟨S32768x2048, .f32⟩
  | .hbm, ⟨60, _⟩ => ⟨S32768x4, .f32⟩
  | .hbm, ⟨61, _⟩ => ⟨S1x4, .f32⟩
  | .hbm, ⟨62, _⟩ => ⟨S32768x4, .f32⟩
  | .hbm, ⟨63, _⟩ => ⟨S32768x4, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  concatenates_S32768x1024_S32768x1024_S32768x2048_d1 : Shape.Concatenates [S32768x1024, S32768x1024] S32768x2048 1
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  reducesTo_S32768x4096_S32768_d1 : S32768x4096.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x4096_0_1 : S32768x1.BroadcastsInDim S32768x4096 (![0, 1] : Fin 2 → Fin S32768x4096.rank)
  bcast_S_S32768x4096 : S_.BroadcastsInDim S32768x4096 (![] : Fin 0 → Fin S32768x4096.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  dot_S32768x2048_S2048x4096_S32768x4096_1_0_0_1_n_n_wf : DotDims.WF S32768x2048 S2048x4096 S32768x4096 [1] [0] [0] [1] [] []
  dot_S32768x4096_S4096x2048_S32768x2048_1_0_0_1_n_n_wf : DotDims.WF S32768x4096 S4096x2048 S32768x2048 [1] [0] [0] [1] [] []
  dot_S32768x2048_S2048x4_S32768x4_1_0_0_1_n_n_wf : DotDims.WF S32768x2048 S2048x4 S32768x4 [1] [0] [0] [1] [] []

variable [Facts₀]

def dot_S32768x2048_S2048x4096_S32768x4096_1_0_0_1_n_n : DotDims S32768x2048 S2048x4096 S32768x4096 where
  lhsContracting := [1]
  rhsContracting := [0]
  lhsNonContracting := [0]
  rhsNonContracting := [1]
  lhsBatch := []
  rhsBatch := []
  wf := dot_S32768x2048_S2048x4096_S32768x4096_1_0_0_1_n_n_wf
def dot_S32768x4096_S4096x2048_S32768x2048_1_0_0_1_n_n : DotDims S32768x4096 S4096x2048 S32768x2048 where
  lhsContracting := [1]
  rhsContracting := [0]
  lhsNonContracting := [0]
  rhsNonContracting := [1]
  lhsBatch := []
  rhsBatch := []
  wf := dot_S32768x4096_S4096x2048_S32768x2048_1_0_0_1_n_n_wf
def dot_S32768x2048_S2048x4_S32768x4_1_0_0_1_n_n : DotDims S32768x2048 S2048x4 S32768x4 where
  lhsContracting := [1]
  rhsContracting := [0]
  lhsNonContracting := [0]
  rhsNonContracting := [1]
  lhsBatch := []
  rhsBatch := []
  wf := dot_S32768x2048_S2048x4_S32768x4_1_0_0_1_n_n_wf

class Facts : Prop extends Facts₀ where

variable [Facts]
-- ==== Proof.Spec.lean ====
/-
  The gated classifier, one input row at a time, over the extended reals.

  An input row `X` of 2048 entries (the two halves of the input laid side by side) goes through
    pre   = X · W1 + b1                        (4096 entries)
    mean  = (Σ pre) / 4096,   cen = pre − mean
    var   = (Σ cen²) / 4096,  rstd = 1 / √(var + ε)
    act   = max (cen · (rstd · g) + β) 0       (layer normalization, then the positive part)
    logit = act · W2 + b2                      (2048 entries)
    gate  = 1 / (1 + e^(−logit))
    cls   = (X ⊙ gate) · W3 + b3               (one entry per class column)
  Every row is treated alike and independently of the others, so an array of rows, whatever its height, is
  mapped row by row: this is why a block of rows of the result is the same function of the same block of rows
  of the input.  The constants are kept as the float patterns both programs print (4096, ε = f32(1e-5), 0).
-/
import Idealize.ShloMosaic.PureOps.Ideal
import Idealize.ShloMosaic.Lib.ValueIdx

noncomputable section

namespace Cert.Spec

open Idealize.ShloMosaic Idealize.ShloMosaic.ValueIdx
open scoped BigOperators

/-- Row `r` of the two inputs laid side by side: a column below 1024 comes from the first input, a column from
    1024 on from the second, 1024 columns to the left. -/
def joined {a : ℕ} (x1 x2 : (⟨2, ![a, 1024]⟩ : Shape).Idx → EReal) (r : Fin a) (d : Fin 2048) : EReal :=
  if h : d.val < 1024 then x1 (ix2 r ⟨d.val, h⟩) else x2 (ix2 r ⟨d.val - 1024, by have := d.isLt; omega⟩)

section Row

variable (X : Fin 2048 → EReal)
  (W1 : (⟨2, ![2048, 4096]⟩ : Shape).Idx → EReal) (b1 g β : (⟨1, ![4096]⟩ : Shape).Idx → EReal)
  (W2 : (⟨2, ![4096, 2048]⟩ : Shape).Idx → EReal) (b2 : (⟨1, ![2048]⟩ : Shape).Idx → EReal)

/-- The first projection with its bias, at hidden coordinate `k`. -/
def pre (k : Fin 4096) : EReal := (∑ d : Fin 2048, X d * W1 (ix2 d k)) + b1 (ix1 k)

/-- The mean of the hidden row. -/
def mean : EReal := Ideal.div (∑ k : Fin 4096, pre X W1 b1 k) (Ideal.ofBits .f32 0x45800000#32)

/-- The hidden row centred at its mean. -/
def cen (k : Fin 4096) : EReal := pre X W1 b1 k - mean X W1 b1

/-- The variance of the hidden row: the mean of the squared deviations. -/
def var : EReal := Ideal.div (∑ k : Fin 4096, cen X W1 b1 k * cen X W1 b1 k) (Ideal.ofBits .f32 0x45800000#32)

/-- The reciprocal standard deviation, regularized by ε. -/
def rstd : EReal := Ideal.rsqrt (var X W1 b1 + Ideal.ofBits .f32 0x3727C5AC#32)

/-- The normalized, scaled and shifted hidden row, cut off below at zero. -/
def act (k : Fin 4096) : EReal :=
  max (cen X W1 b1 k * (rstd X W1 b1 * g (ix1 k)) + β (ix1 k)) (Ideal.ofBits .f32 0x00000000#32)

/-- The second projection with its bias, at column `j`. -/
def logit (j : Fin 2048) : EReal := (∑ k : Fin 4096, act X W1 b1 g β k * W2 (ix2 k j)) + b2 (ix1 j)

/-- The gate: the logistic function of the logit. -/
def gate (j : Fin 2048) : EReal := Ideal.logistic (logit X W1 b1 g β W2 b2 j)

/-- The class score of column `c`: the gated row against column `c` of the last projection, plus its bias. The number
    of class columns `n` is free: zero columns appended to the projection and zeros to the bias leave the first scores
    as they were (`cls_congr`). -/
def cls {n : ℕ} (W3 : (⟨2, ![2048, n]⟩ : Shape).Idx → EReal) (b3 : (⟨1, ![n]⟩ : Shape).Idx → EReal) (c : Fin n) : EReal :=
  (∑ j : Fin 2048, (X j * gate X W1 b1 g β W2 b2 j) * W3 (ix2 j c)) + b3 (ix1 c)

/-- A class score depends on its own column of the projection and its own bias entry only. -/
theorem cls_congr {n n' : ℕ} (W3 : (⟨2, ![2048, n]⟩ : Shape).Idx → EReal) (b3 : (⟨1, ![n]⟩ : Shape).Idx → EReal)
    (W3' : (⟨2, ![2048, n']⟩ : Shape).Idx → EReal) (b3' : (⟨1, ![n']⟩ : Shape).Idx → EReal) (c : Fin n) (c' : Fin n')
    (hW : ∀ j : Fin 2048, W3 (ix2 j c) = W3' (ix2 j c')) (hb : b3 (ix1 c) = b3' (ix1 c')) :
    cls X W1 b1 g β W2 b2 W3 b3 c = cls X W1 b1 g β W2 b2 W3' b3' c' := by
  unfold cls
  rw [hb]
  exact congrArg (· + b3' (ix1 c')) (Finset.sum_congr rfl fun j _ => by rw [hW j])

end Row

section Arrays

variable {a : ℕ} (x1 x2 : (⟨2, ![a, 1024]⟩ : Shape).Idx → EReal)
  (W1 : (⟨2, ![2048, 4096]⟩ : Shape).Idx → EReal) (b1 g β : (⟨1, ![4096]⟩ : Shape).Idx → EReal)
  (W2 : (⟨2, ![4096, 2048]⟩ : Shape).Idx → EReal) (b2 : (⟨1, ![2048]⟩ : Shape).Idx → EReal)

/-- The gates of every row: an array of `a` rows by 2048 columns. -/
def gates : (⟨2, ![a, 2048]⟩ : Shape).Idx → EReal :=
  fun i => gate (joined x1 x2 (i 0)) W1 b1 g β W2 b2 (i 1)

/-- The class scores of every row: `a` rows by `n` class columns. -/
def scores {n : ℕ} (W3 : (⟨2, ![2048, n]⟩ : Shape).Idx → EReal) (b3 : (⟨1, ![n]⟩ : Shape).Idx → EReal) :
    (⟨2, ![a, n]⟩ : Shape).Idx → EReal :=
  fun i => cls (joined x1 x2 (i 0)) W1 b1 g β W2 b2 W3 b3 (i 1)

end Arrays

end Cert.Spec

end
-- ==== Proof.LibConcat.lean ====
/-
  Two arrays with the same number of rows joined along their second axis, read at coordinates.

  The join `[a, n₁] ++ [a, n₂] → [a, n]` keeps rows apart: at `(r, d)` it reads the first array at `(r, d)` when the
  column `d` lies below the first array's width `n₁`, and otherwise the second array at `(r, d − n₁)`.  The three
  lemmas name the operand's index by coordinates, so that they apply by unification at any extents.
-/
import Idealize.ShloMosaic.Lib.Pipeline.Value
import Idealize.ShloMosaic.Lib.ValueIdx

namespace Cert.LibConcat

open Idealize.ShloMosaic Idealize.ShloMosaic.ValueIdx

variable {α : Type}

/-- A column of the first piece: the join at `(r, d)` with `d < n₁` is the first array at `(r, d)`. -/
theorem concat_cols_left {a n1 n2 n : ℕ} (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ (1 : Fin 2)) (r : Fin a) (d : Fin n)
    (hd : d.val < n1) :
    concatenate ⟨2, ![a, n]⟩ (1 : Fin 2) [⟨⟨2, ![a, n1]⟩, x1⟩, ⟨⟨2, ![a, n2]⟩, x2⟩] h (ix2 r d) = x1 (ix2 r ⟨d.val, hd⟩) :=
  concatenate_pair_apply_left (1 : Fin 2) x1 x2 h (ix2 r d) rfl (ix2 r ⟨d.val, hd⟩) (fun b => by
    match b with
    | ⟨0, _⟩ => rfl
    | ⟨1, _⟩ => rfl)

/-- A column of the second piece: the join at `(r, d)` with `n₁ ≤ d` is the second array at `(r, d − n₁)`. -/
theorem concat_cols_right {a n1 n2 n : ℕ} (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ (1 : Fin 2)) (r : Fin a) (d : Fin n)
    (hd : n1 ≤ d.val) (hd2 : d.val - n1 < n2) :
    concatenate ⟨2, ![a, n]⟩ (1 : Fin 2) [⟨⟨2, ![a, n1]⟩, x1⟩, ⟨⟨2, ![a, n2]⟩, x2⟩] h (ix2 r d) = x2 (ix2 r ⟨d.val - n1, hd2⟩) :=
  concatenate_pair_apply_right (1 : Fin 2) x1 x2 h (ix2 r d) rfl rfl (ix2 r ⟨d.val - n1, hd2⟩)
    (fun b hb => by
      match b with
      | ⟨0, _⟩ => rfl
      | ⟨1, _⟩ => exact absurd (Fin.ext rfl) hb)
    (by show (d.val - n1) + n1 = d.val; omega)

/-- Both cases at once, as the choice on the column. -/
theorem concat_cols_apply {a n1 n2 n : ℕ} (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ (1 : Fin 2)) (hn : n = n1 + n2)
    (r : Fin a) (d : Fin n) :
    concatenate ⟨2, ![a, n]⟩ (1 : Fin 2) [⟨⟨2, ![a, n1]⟩, x1⟩, ⟨⟨2, ![a, n2]⟩, x2⟩] h (ix2 r d)
      = if hd : d.val < n1 then x1 (ix2 r ⟨d.val, hd⟩)
        else x2 (ix2 r ⟨d.val - n1, by have := d.isLt; omega⟩) := by
  by_cases hd : d.val < n1
  · rw [dif_pos hd]; exact concat_cols_left x1 x2 h r d hd
  · rw [dif_neg hd]; exact concat_cols_right x1 x2 h r d (Nat.le_of_not_lt hd) _

end Cert.LibConcat
-- ==== Proof.RefSpec.lean ====
/-
  The reference program is the specification.

  The reference computes, on all 32768 rows at once, the same chain of stages the specification spells row by row:
  the two inputs laid side by side, the first projection with its bias, the layer normalization (mean, centred row,
  variance, reciprocal standard deviation, scale and shift), the positive part, the second projection with its bias,
  the logistic gate, and the class scores of the gated row.  Each stage of the reference is an array indexed by
  (row, column); each lemma below reads one stage at coordinates (r, ·) and identifies it with the specification's
  stage on row r, using the lemma of the stage before.  The differences to bridge are only of form: sums that start
  from the constant zero (0 + s = s), broadcasts that repeat a row vector or a per-row scalar (read at the index they
  copy from), the product (cen · rstd) · g grouped to the left where the specification has cen · (rstd · g)
  (associativity of the product of extended reals), and the logistic function written out as 1 / (1 + e^(−x)) with the
  constant one given by its float pattern.
-/
import proofs.«106940_j13400297964136_2_alg».proof.Proof.Gen.ReferenceIdeal.Read
import proofs.«106940_j13400297964136_2_alg».proof.Proof.Spec
import proofs.«106940_j13400297964136_2_alg».proof.Proof.LibConcat

noncomputable section

namespace Cert.RefSpec

open Idealize.ShloMosaic Idealize.ShloMosaic.ValueIdx Cert.ReferenceIdeal
open scoped BigOperators

variable (x0 x1 : (⟨S32768x1024, .f32⟩ : BufTy).Contents (Elt Ideal))
  (x2 : (⟨S2048x4096, .f32⟩ : BufTy).Contents (Elt Ideal))
  (x3 x4 x5 : (⟨S4096, .f32⟩ : BufTy).Contents (Elt Ideal))
  (x6 : (⟨S4096x2048, .f32⟩ : BufTy).Contents (Elt Ideal))
  (x7 : (⟨S2048, .f32⟩ : BufTy).Contents (Elt Ideal))
  (x8 : (⟨S2048x4, .f32⟩ : BufTy).Contents (Elt Ideal))
  (x9 : (⟨S4, .f32⟩ : BufTy).Contents (Elt Ideal))

/-- The joined input: the reference's concatenation at (r, d) is the specification's joined row r at d. -/
theorem joined_apply (r : Fin 32768) (d : Fin 2048) :
    Read.val_main_v0 (F := Ideal) x0 x1 (ix2 r d) = Spec.joined x0 x1 r d := by
  unfold Read.val_main_v0 Spec.joined
  exact Cert.LibConcat.concat_cols_apply x0 x1 _ rfl r d

/-- The first projection with its bias. -/
theorem pre_apply (r : Fin 32768) (k : Fin 4096) :
    Read.val_main_v4 (F := Ideal) x0 x1 x2 x3 (ix2 r k) = Spec.pre (Spec.joined x0 x1 r) x2 x3 k := by
  rw [Read.val_main_v4_apply, Read.val_main_v1_apply, Read.val_main_v3_apply, Read.val_main_v2_apply, Ideal.addf_def]
  unfold Spec.pre
  congr 1
  · refine Finset.sum_congr rfl fun d _ => ?_
    have hl : Read.lidx_main_v1 (ix2 r k) d = ix2 r d :=
      funext fun a => match a with | ⟨0, _⟩ => rfl | ⟨1, _⟩ => rfl
    have hr : Read.ridx_main_v1 (ix2 r k) d = ix2 d k :=
      funext fun a => match a with | ⟨0, _⟩ => rfl | ⟨1, _⟩ => rfl
    rw [hl, hr, joined_apply]
  · exact congrArg x3 (funext fun a => match a with | ⟨0, _⟩ => rfl)

/-- The mean of the hidden row: the reference's row sum starts from zero and is divided by the constant 4096. -/
theorem mean_apply (r : Fin 32768) (u : Fin 1) :
    Read.val_main_v8 (F := Ideal) x0 x1 x2 x3 (ix2 r u) = Spec.mean (Spec.joined x0 x1 r) x2 x3 := by
  rw [Read.val_main_v8_apply, Read.val_main_v6_apply, Read.val_main_v5_apply, Read.val_main_v7_apply,
    Read.val_main_cst_0_apply, Read.val_main_cst_apply, Ideal.hostDivf_def, Ideal.ofBits_def, Ideal.ofBits_def,
    Ideal.ofBits_zero_f32, zero_add]
  unfold Spec.mean
  congr 1
  refine Finset.sum_congr rfl fun k _ => ?_
  have h : Read.idx_main_v5 (Read.idx_main_v6 (ix2 r u)) k = ix2 r k :=
    funext fun a => match a with | ⟨0, _⟩ => rfl | ⟨1, _⟩ => rfl
  rw [h, pre_apply]

/-- The centred hidden row (the stage the variance is taken of). -/
theorem cen_apply (r : Fin 32768) (k : Fin 4096) :
    Read.val_main_v10 (F := Ideal) x0 x1 x2 x3 (ix2 r k) = Spec.cen (Spec.joined x0 x1 r) x2 x3 k := by
  rw [Read.val_main_v10_apply, Read.val_main_v9_apply, Ideal.subf_def, pre_apply]
  have h : Read.idx_main_v9 (ix2 r k) = ix2 r (⟨0, Nat.one_pos⟩ : Fin 1) :=
    funext fun a => match a with | ⟨0, _⟩ => rfl | ⟨1, _⟩ => rfl
  rw [h, mean_apply]
  rfl

/-- The centred hidden row again (the stage the normalization multiplies): the same value. -/
theorem cen_apply' (r : Fin 32768) (k : Fin 4096) :
    Read.val_main_v17 (F := Ideal) x0 x1 x2 x3 (ix2 r k) = Spec.cen (Spec.joined x0 x1 r) x2 x3 k := by
  rw [Read.val_main_v17_apply, Read.val_main_v16_apply, Ideal.subf_def, pre_apply]
  have h : Read.idx_main_v16 (ix2 r k) = ix2 r (⟨0, Nat.one_pos⟩ : Fin 1) :=
    funext fun a => match a with | ⟨0, _⟩ => rfl | ⟨1, _⟩ => rfl
  rw [h, mean_apply]
  rfl

/-- The variance: the row sum of the squared deviations, from zero, divided by 4096. -/
theorem var_apply (r : Fin 32768) (u : Fin 1) :
    Read.val_main_v15 (F := Ideal) x0 x1 x2 x3 (ix2 r u) = Spec.var (Spec.joined x0 x1 r) x2 x3 := by
  rw [Read.val_main_v15_apply, Read.val_main_v13_apply, Read.val_main_v12_apply, Read.val_main_v14_apply,
    Read.val_main_cst_2_apply, Read.val_main_cst_1_apply, Ideal.hostDivf_def, Ideal.ofBits_def, Ideal.ofBits_def,
    Ideal.ofBits_zero_f32, zero_add]
  unfold Spec.var
  congr 1
  refine Finset.sum_congr rfl fun k _ => ?_
  have h : Read.idx_main_v12 (Read.idx_main_v13 (ix2 r u)) k = ix2 r k :=
    funext fun a => match a with | ⟨0, _⟩ => rfl | ⟨1, _⟩ => rfl
  rw [h, Read.val_main_v11_apply, Ideal.mulf_def, cen_apply]

/-- The reciprocal standard deviation. -/
theorem rstd_apply (r : Fin 32768) (u : Fin 1) :
    Read.val_main_v20 (F := Ideal) x0 x1 x2 x3 (ix2 r u) = Spec.rstd (Spec.joined x0 x1 r) x2 x3 := by
  rw [Read.val_main_v20_apply, Read.val_main_v19_apply, Read.val_main_v18_apply, Read.val_main_cst_3_apply,
    Ideal.hostUnary_rsqrt_def, Ideal.addf_def, Ideal.ofBits_def, var_apply]
  rfl

/-- The normalized, scaled and shifted hidden row, cut off below at zero. The reference multiplies the centred entry by
    the reciprocal standard deviation first and by the scale after; the specification groups the other way. -/
theorem act_apply (r : Fin 32768) (k : Fin 4096) :
    Read.val_main_v29 (F := Ideal) x0 x1 x2 x3 x4 x5 (ix2 r k)
      = Spec.act (Spec.joined x0 x1 r) x2 x3 x4 x5 k := by
  rw [Read.val_main_v29_apply, Read.val_main_v28_apply, Read.val_main_v25_apply, Read.val_main_v22_apply,
    Read.val_main_v21_apply, Read.val_main_v24_apply, Read.val_main_v23_apply, Read.val_main_v27_apply,
    Read.val_main_v26_apply, Read.val_main_call0_v0_apply, Read.val_main_call0_cst_apply,
    Ideal.maximumf_def, Ideal.addf_def, Ideal.mulf_def, Ideal.mulf_def, Ideal.ofBits_def, cen_apply']
  have h : Read.idx_main_v21 (ix2 r k) = ix2 r (⟨0, Nat.one_pos⟩ : Fin 1) :=
    funext fun a => match a with | ⟨0, _⟩ => rfl | ⟨1, _⟩ => rfl
  have h4 : Read.idx_main_v23 (Read.idx_main_v24 (ix2 r k)) = ix1 k :=
    funext fun a => match a with | ⟨0, _⟩ => rfl
  have h5 : Read.idx_main_v26 (Read.idx_main_v27 (ix2 r k)) = ix1 k :=
    funext fun a => match a with | ⟨0, _⟩ => rfl
  rw [h, h4, h5, rstd_apply, mul_assoc]
  rfl

/-- The second projection with its bias. -/
theorem logit_apply (r : Fin 32768) (j : Fin 2048) :
    Read.val_main_v33 (F := Ideal) x0 x1 x2 x3 x4 x5 x6 x7 (ix2 r j)
      = Spec.logit (Spec.joined x0 x1 r) x2 x3 x4 x5 x6 x7 j := by
  rw [Read.val_main_v33_apply, Read.val_main_v30_apply, Read.val_main_v32_apply, Read.val_main_v31_apply,
    Ideal.addf_def]
  unfold Spec.logit
  congr 1
  · refine Finset.sum_congr rfl fun k _ => ?_
    have hl : Read.lidx_main_v30 (ix2 r j) k = ix2 r k :=
      funext fun a => match a with | ⟨0, _⟩ => rfl | ⟨1, _⟩ => rfl
    have hr : Read.ridx_main_v30 (ix2 r j) k = ix2 k j :=
      funext fun a => match a with | ⟨0, _⟩ => rfl | ⟨1, _⟩ => rfl
    rw [hl, hr, act_apply]
  · exact congrArg x7 (funext fun a => match a with | ⟨0, _⟩ => rfl)

/-- The float pattern 0x3F800000 is the number one. -/
theorem ofBits_one_f32 : Ideal.ofBits .f32 0x3F800000#32 = 1 := by
  simp [Ideal.ofBits, Ideal.ieee, -EReal.coe_mul]; norm_num

/-- The gate: the reference spells the logistic function as 1 / (1 + e^(−x)). -/
theorem gate_apply (r : Fin 32768) (j : Fin 2048) :
    Read.val_main_v39 (F := Ideal) x0 x1 x2 x3 x4 x5 x6 x7 (ix2 r j)
      = Spec.gate (Spec.joined x0 x1 r) x2 x3 x4 x5 x6 x7 j := by
  rw [Read.val_main_v39_apply, Read.val_main_v38_apply, Read.val_main_cst_5_apply, Read.val_main_v37_apply,
    Read.val_main_v36_apply, Read.val_main_cst_4_apply, Read.val_main_v35_apply, Read.val_main_v34_apply,
    Ideal.hostDivf_def, Ideal.addf_def, Ideal.hostUnary_exp_def, Ideal.hostNegf_def, Ideal.negf_def,
    Ideal.ofBits_def, ofBits_one_f32, logit_apply]
  rfl

/-- The class scores: the gated row against the last projection, plus its bias. -/
theorem cls_apply (r : Fin 32768) (c : Fin 4) :
    Read.val_main_v44 (F := Ideal) x0 x1 x2 x3 x4 x5 x6 x7 x8 x9 (ix2 r c)
      = Spec.cls (Spec.joined x0 x1 r) x2 x3 x4 x5 x6 x7 x8 x9 c := by
  rw [Read.val_main_v44_apply, Read.val_main_v41_apply, Read.val_main_v43_apply, Read.val_main_v42_apply,
    Ideal.addf_def]
  unfold Spec.cls
  congr 1
  · refine Finset.sum_congr rfl fun j _ => ?_
    have hl : Read.lidx_main_v41 (ix2 r c) j = ix2 r j :=
      funext fun a => match a with | ⟨0, _⟩ => rfl | ⟨1, _⟩ => rfl
    have hr : Read.ridx_main_v41 (ix2 r c) j = ix2 j c :=
      funext fun a => match a with | ⟨0, _⟩ => rfl | ⟨1, _⟩ => rfl
    rw [hl, hr, Read.val_main_v40_apply, Ideal.mulf_def, joined_apply, gate_apply]
  · exact congrArg x9 (funext fun a => match a with | ⟨0, _⟩ => rfl)

/-- The reference's gates are the specification's, as whole arrays. -/
theorem ref_gates :
    Read.val_main_v39 (F := Ideal) x0 x1 x2 x3 x4 x5 x6 x7 = Spec.gates x0 x1 x2 x3 x4 x5 x6 x7 := by
  funext i
  exact (congrArg (Read.val_main_v39 (F := Ideal) x0 x1 x2 x3 x4 x5 x6 x7) (eq_ix2 i)).trans
    (gate_apply x0 x1 x2 x3 x4 x5 x6 x7 (i 0) (i 1))

/-- The reference's class scores are the specification's, as whole arrays. -/
theorem ref_scores :
    Read.val_main_v44 (F := Ideal) x0 x1 x2 x3 x4 x5 x6 x7 x8 x9 = Spec.scores x0 x1 x2 x3 x4 x5 x6 x7 x8 x9 := by
  funext i
  exact (congrArg (Read.val_main_v44 (F := Ideal) x0 x1 x2 x3 x4 x5 x6 x7 x8 x9) (eq_ix2 i)).trans
    (cls_apply x0 x1 x2 x3 x4 x5 x6 x7 x8 x9 (i 0) (i 1))

end Cert.RefSpec

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.RowStages.lean ====
/-
  The stages of the kernel's body, named, and each read at one row of a block.

  The body's arithmetic is a chain: join, first product plus bias, the row mean, centring, the row variance, the
  reciprocal standard deviation, scale and shift, the positive part, second product plus bias, the logistic
  function, the gated input, third product plus bias.  Each stage is a function of the previous stage's block,
  and each reads row `p` of its result from row `p` of its operand (and from the whole weight arrays).
-/
import proofs.«106940_j13400297964136_2_alg».proof.Proof.Gen.KernelIdeal.Frame
import proofs.«106940_j13400297964136_2_alg».proof.Proof.Spec
import proofs.«106940_j13400297964136_2_alg».proof.Proof.LibConcat
import proofs.«106940_j13400297964136_2_alg».proof.Proof.LibLayout
import proofs.«106940_j13400297964136_2_alg».proof.Proof.LibRows
import Idealize.ShloMosaic.Lib.Pipeline.Value
import Idealize.ShloMosaic.Lib.ValueLayout
import Idealize.ShloMosaic.PureOps.Ideal.Laws

noncomputable section

namespace Cert.RowStages

open Idealize.ShloMosaic Idealize.ShloMosaic.ValueIdx Cert.KernelIdeal Cert.KernelIdeal.Gen
open scoped BigOperators

/-! ## A product of a block of rows with a matrix, read at (row, column) -/

/-- A matrix product `[M, K] × [K, N]` into a zero accumulator, at the exact values, read at `(p, c)`: the sum over
    the contracted coordinate `k` of the left operand's `(p, k)` times the right operand's `(k, c)`.  The hypotheses
    say that the dimension numbers contract the left operand's columns against the right operand's rows and keep the
    left rows and the right columns; at a literal record each is decided or holds by computation. -/
theorem matmul_rows_cols {M K N : ℕ} {φ₁ φ₂ : FTy} (D : DotDims ⟨2, ![M, K]⟩ ⟨2, ![K, N]⟩ ⟨2, ![M, N]⟩)
    (prec : Option ContractPrecision) (hr : D.contr.rank = 1) (hs : D.contr.size ⟨0, by omega⟩ = K)
    (hlc : D.lhsContracting = [(1 : Fin 2)]) (hrc : D.rhsContracting = [(0 : Fin 2)])
    (hl0 : ∀ (i : (⟨2, ![M, N]⟩ : Shape).Idx) (q : D.contr.Idx), (D.lhsIdx i q 0).val = (i 0).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (D.lhsIdx_val_of_single hlc _ _).trans hk)
  have er : D.rhsIdx (ix2 p c) ((contrEquiv1 D K hr hs).symm k) = ix2 k c := funext fun a => Fin.ext (by
    match a with
    | ⟨0, _⟩ => exact (D.rhsIdx_val_of_single hrc _ _).trans hk
    | ⟨1, _⟩ => exact hr1 _ _)
  rw [el, er]

/-! ## The body's stages, as the program spells them -/

/-- The first product plus its bias: a block `X` of joined rows against the first weight matrix. -/
def stPre (X : FVec Ideal S128x2048 .f32) (v4 : Vec Ideal S2048x4096 .bf16) (v7 : Vec Ideal S4096 .f32) : FVec Ideal S128x4096 .f32 :=
  addf (matmul dot_S128x2048_S2048x4096_S128x4096_1_0_0_1_n_n none (truncf .bf16 X bitsLt_bf16_f32 : FVec Ideal S128x2048 .bf16)
      (shapeCast S2048x4096 v4 shapeCasts_S2048x4096_S2048x4096 : FVec Ideal S2048x4096 .bf16) (constant S128x4096 .f32 0x00000000#32))
    (broadcastTo S128x4096 (shapeCast S1x4096 v7 shapeCasts_S4096_S1x4096) broadcasts_S1x4096_S128x4096)

/-- The mean of each row of a block, kept as a column: the row sum over 4096. -/
def stMean (h : FVec Ideal S128x4096 .f32) : FVec Ideal S128x1 .f32 :=
  divf (shapeCast S128x1 (multiReduction .add [1] S128 h 0x00000000#32 reduces_S128x4096_S128 (.inl rfl) rfl) shapeCasts_S128_S128x1)
    (broadcast S128x1 (Scalar.ofBits .f32 0x45800000#32))

/-- Each row centred at its mean. -/
def stCen (h : FVec Ideal S128x4096 .f32) : FVec Ideal S128x4096 .f32 :=
  subf h (broadcastTo S128x4096 (stMean h) broadcasts_S128x1_S128x4096)

/-- The reciprocal standard deviation of each centred row, kept as a column. -/
def stRstd (d : FVec Ideal S128x4096 .f32) : FVec Ideal S128x1 .f32 :=
  rsqrt (addf (stMean (mulf d d)) (broadcast S128x1 (Scalar.ofBits .f32 0x3727C5AC#32)))

/-- Scale, shift and the positive part. -/
def stAct (d : FVec Ideal S128x4096 .f32) (v25 v31 : Vec Ideal S4096 .f32) : FVec Ideal S128x4096 .f32 :=
  maximumf
    (addf (mulf d (mulf (broadcastTo S128x4096 (stRstd d) broadcasts_S128x1_S128x4096)
        (broadcastTo S128x4096 (shapeCast S1x4096 v25 shapeCasts_S4096_S1x4096) broadcasts_S1x4096_S128x4096)))
      (broadcastTo S128x4096 (shapeCast S1x4096 v31 shapeCasts_S4096_S1x4096) broadcasts_S1x4096_S128x4096))
    (broadcast S128x4096 (Scalar.ofBits .f32 0x00000000#32))

set_option maxRecDepth 65536 in
set_option maxHeartbeats 2000000 in
/-- The hidden block the body hands on is these stages applied in turn to the joined block. -/
theorem pay4_eq (v0 v1 : Vec Ideal S128x1024 .f32) (v4 : Vec Ideal S2048x4096 .bf16) (v7 v25 v31 : Vec Ideal S4096 .f32) :
    k0_pay4 (F := Ideal) v0 v1 v4 v7 v25 v31
      = truncf .bf16 (stAct (stCen (stPre (k0_pay3 v0 v1) v4 v7)) v25 v31) bitsLt_bf16_f32 := rfl

/-- The block of gates is the logistic function of the second product plus its bias. -/
theorem pay1_eq (v37 : FVec Ideal S128x4096 .bf16) (v39 : FVec Ideal S4096x2048 .bf16) (cst : FVec Ideal S128x2048 .f32) (v41 : Vec Ideal S2048 .f32) :
    k0_pay1 (F := Ideal) v37 v39 cst v41
      = logistic (addf (matmul dot_S128x4096_S4096x2048_S128x2048_1_0_0_1_n_n none v37 v39 cst)
          (broadcastTo S128x2048 (shapeCast S1x2048 v41 shapeCasts_S2048_S1x2048) broadcasts_S1x2048_S128x2048)) := rfl

/-- The block of class scores is the third product, of the gated block, plus its bias. -/
theorem pay2_eq (v2 : FVec Ideal S128x2048 .f32) (v37 : FVec Ideal S128x4096 .bf16) (v39 : FVec Ideal S4096x2048 .bf16)
    (cst : FVec Ideal S128x2048 .f32) (v41 : Vec Ideal S2048 .f32) (v49 : Vec Ideal S2048x128 .bf16) (v52 : Vec Ideal S128 .f32) :
    k0_pay2 (F := Ideal) v2 v37 v39 cst v41 v49 v52
      = addf (matmul dot_S128x2048_S2048x128_S128x128_1_0_0_1_n_n none
            (truncf .bf16 (mulf v2 (k0_pay1 v37 v39 cst v41)) bitsLt_bf16_f32 : FVec Ideal S128x2048 .bf16)
            (shapeCast S2048x128 v49 shapeCasts_S2048x128_S2048x128 : FVec Ideal S2048x128 .bf16) (constant S128x128 .f32 0x00000000#32))
          (broadcastTo S128x128 (shapeCast S1x128 (shapeCast S128 v52 shapeCasts_S128_S128) shapeCasts_S128_S1x128) broadcasts_S1x128_S128x128) := rfl

end Cert.RowStages

end
-- ==== Proof.RowGate.lean ====
/-
  The second half of the kernel's body at one row of a block: the gates and the class scores.

  Row `p` of the block of gates is the logistic function of row `p` of the hidden block against the second weight
  matrix, plus the bias; row `p` of the block of class scores is row `p` of the gated input block against the last
  projection, plus its bias.  Both are stated over whatever row `p` of the operand block is known to be, so that they
  chain with the first half.
-/
import proofs.«106940_j13400297964136_2_alg».proof.Proof.RowStages

noncomputable section

namespace Cert.RowGate

open Idealize.ShloMosaic Idealize.ShloMosaic.ValueIdx Cert.KernelIdeal Cert.KernelIdeal.Gen Cert.RowStages
open scoped BigOperators

/-! ## The two products' dimension numbers keep the left rows and the right columns -/

theorem d2_l0 (i : S128x2048.Idx) (q : dot_S128x4096_S4096x2048_S128x2048_1_0_0_1_n_n.contr.Idx) :
    (dot_S128x4096_S4096x2048_S128x2048_1_0_0_1_n_n.lhsIdx i q 0).val = (i 0).val := by
  unfold DotDims.lhsIdx
  rw [dif_neg (show ¬(0 : Fin S128x4096.rank) ∈ dot_S128x4096_S4096x2048_S128x2048_1_0_0_1_n_n.lhsBatch by decide),
    dif_pos (show (0 : Fin S128x4096.rank) ∈ dot_S128x4096_S4096x2048_S128x2048_1_0_0_1_n_n.lhsNonContracting by decide)]
  rfl

theorem d2_r1 (i : S128x2048.Idx) (q : dot_S128x4096_S4096x2048_S128x2048_1_0_0_1_n_n.contr.Idx) :
    (dot_S128x4096_S4096x2048_S128x2048_1_0_0_1_n_n.rhsIdx i q 1).val = (i 1).val := by
  unfold DotDims.rhsIdx
  rw [dif_neg (show ¬(1 : Fin S4096x2048.rank) ∈ dot_S128x4096_S4096x2048_S128x2048_1_0_0_1_n_n.rhsBatch by decide),
    dif_pos (show (1 : Fin S4096x2048.rank) ∈ dot_S128x4096_S4096x2048_S128x2048_1_0_0_1_n_n.rhsNonContracting by decide)]
  rfl

theorem d3_l0 (i : S128x128.Idx) (q : dot_S128x2048_S2048x128_S128x128_1_0_0_1_n_n.contr.Idx) :
    (dot_S128x2048_S2048x128_S128x128_1_0_0_1_n_n.lhsIdx i q 0).val = (i 0).val := by
  unfold DotDims.lhsIdx
  rw [dif_neg (show ¬(0 : Fin S128x2048.rank) ∈ dot_S128x2048_S2048x128_S128x128_1_0_0_1_n_n.lhsBatch by decide),
    dif_pos (show (0 : Fin S128x2048.rank) ∈ dot_S128x2048_S2048x128_S128x128_1_0_0_1_n_n.lhsNonContracting by decide)]
  rfl

theorem d3_r1 (i : S128x128.Idx) (q : dot_S128x2048_S2048x128_S128x128_1_0_0_1_n_n.contr.Idx) :
    (dot_S128x2048_S2048x128_S128x128_1_0_0_1_n_n.rhsIdx i q 1).val = (i 1).val := by
  unfold DotDims.rhsIdx
  rw [dif_neg (show ¬(1 : Fin S2048x128.rank) ∈ dot_S128x2048_S2048x128_S128x128_1_0_0_1_n_n.rhsBatch by decide),
    dif_pos (show (1 : Fin S2048x128.rank) ∈ dot_S128x2048_S2048x128_S128x128_1_0_0_1_n_n.rhsNonContracting by decide)]
  rfl

/-! ## The gates -/

/-- Row `p` of the block of gates, from row `p` of the hidden block: the logistic function of the row against the
    second weight matrix, plus the bias. -/
theorem gate_row (A : FVec Ideal S128x4096 .bf16) (v38 : Vec Ideal S4096x2048 .bf16) (v41 : Vec Ideal S2048 .f32)
    (Ar : Fin 4096 → EReal) (p : Fin 128) (hA : ∀ k, A (ix2 p k) = Ar k) (j : Fin 2048) :
    k0_pay1 (F := Ideal) A (k0_pay5 v38) (constant S128x2048 .f32 0x00000000#32) v41 (ix2 p j)
      = Ideal.logistic ((∑ k : Fin 4096, Ar k * v38 (ix2 k j)) + v41 (ix1 j)) := by
  have e5 : k0_pay5 (F := Ideal) v38 = v38 := shapeCast_self _ _
  rw [pay1_eq, e5]
  show Ideal.logistic
      (FloatOps.matmul dot_S128x4096_S4096x2048_S128x2048_1_0_0_1_n_n none A (v38 : FVec Ideal S4096x2048 .bf16)
          (constant (F := Ideal) S128x2048 .f32 0x00000000#32) (ix2 p j)
        + broadcastTo S128x2048 (shapeCast S1x2048 v41 shapeCasts_S2048_S1x2048) broadcasts_S1x2048_S128x2048 (ix2 p j)) = _
  rw [matmul_rows_cols dot_S128x4096_S4096x2048_S128x2048_1_0_0_1_n_n none rfl rfl rfl rfl d2_l0 d2_r1,
    broadcastTo_1b_ab_apply, shapeCast_a_1a_apply]
  exact congrArg (fun s => Ideal.logistic (s + v41 (ix1 j))) (Finset.sum_congr rfl fun k _ => by rw [hA k])

/-! ## The class scores -/

/-- Row `p` of the block of class scores, from row `p` of the joined input block and of the block of gates: the
    gated row against the last projection, plus its bias. -/
theorem scores_row (v2 : FVec Ideal S128x2048 .f32) (v37 : FVec Ideal S128x4096 .bf16) (v39 : FVec Ideal S4096x2048 .bf16)
    (cst : FVec Ideal S128x2048 .f32) (v41 : Vec Ideal S2048 .f32) (v49 : Vec Ideal S2048x128 .bf16) (v52 : Vec Ideal S128 .f32)
    (Xr Gr : Fin 2048 → EReal) (p : Fin 128) (hX : ∀ j, v2 (ix2 p j) = Xr j)
    (hG : ∀ j, k0_pay1 (F := Ideal) v37 v39 cst v41 (ix2 p j) = Gr j) (c : Fin 128) :
    k0_pay2 (F := Ideal) v2 v37 v39 cst v41 v49 v52 (ix2 p c)
      = (∑ j : Fin 2048, (Xr j * Gr j) * v49 (ix2 j c)) + v52 (ix1 c) := by
  rw [pay2_eq]
  show FloatOps.matmul dot_S128x2048_S2048x128_S128x128_1_0_0_1_n_n none
        (truncf .bf16 (mulf v2 (k0_pay1 v37 v39 cst v41)) bitsLt_bf16_f32 : FVec Ideal S128x2048 .bf16)
        (shapeCast S2048x128 v49 shapeCasts_S2048x128_S2048x128 : FVec Ideal S2048x128 .bf16)
        (constant (F := Ideal) S128x128 .f32 0x00000000#32) (ix2 p c)
      + broadcastTo S128x128 (shapeCast S1x128 (shapeCast S128 v52 shapeCasts_S128_S128) shapeCasts_S128_S1x128)
          broadcasts_S1x128_S128x128 (ix2 p c) = _
  rw [matmul_rows_cols dot_S128x2048_S2048x128_S128x128_1_0_0_1_n_n none rfl rfl rfl rfl d3_l0 d3_r1,
    broadcastTo_1b_ab_apply, shapeCast_a_1a_apply, shapeCast_self, shapeCast_self]
  refine congrArg (· + v52 (ix1 c)) (Finset.sum_congr rfl fun j _ => ?_)
  show (v2 (ix2 p j) * k0_pay1 v37 v39 cst v41 (ix2 p j)) * v49 (ix2 j c) = _
  rw [hX j, hG j]

end Cert.RowGate

end
-- ==== Proof.RowNorm.lean ====
/-
  One row of the kernel's hidden block is the specification's hidden row.

  The kernel's body works on a block of 128 rows at a time.  Each stage of its first half (the first product plus its
  bias, the row mean, centring, the reciprocal standard deviation, scale and shift with the positive part) reads row
  p of its result from row p of its operand alone: a product of a block with a matrix, at (p, k), is the sum over the
  contracted coordinate of the block's row p against the matrix's column k; a row sum at row p is the sum of row p;
  a column repeated along the rows and a row vector repeated down the rows are read at the entry they copy.  So the
  stages, read at row p, are first written as plain expressions in row p of the operand block, and then, when row p of
  the block is a given row X, identified one after the other with the specification's stages of X.  The change of
  float format on the way into the product is the identity at the exact values.
-/
import proofs.«106940_j13400297964136_2_alg».proof.Proof.RowStages

noncomputable section

namespace Cert.RowNorm

open Idealize.ShloMosaic Idealize.ShloMosaic.ValueIdx Cert.KernelIdeal Cert.KernelIdeal.Gen Cert.RowStages
open scoped BigOperators

/-! ## The stages read at one row of a variable block -/

/-- The product's dimension numbers keep the left operand's rows. -/
theorem dot1_lhs0 (i : S128x4096.Idx) (q : dot_S128x2048_S2048x4096_S128x4096_1_0_0_1_n_n.contr.Idx) :
    (dot_S128x2048_S2048x4096_S128x4096_1_0_0_1_n_n.lhsIdx i q 0).val = (i 0).val := by
  unfold DotDims.lhsIdx
  rw [dif_neg (show ¬(0 : Fin S128x2048.rank) ∈ dot_S128x2048_S2048x4096_S128x4096_1_0_0_1_n_n.lhsBatch by decide),
    dif_pos (show (0 : Fin S128x2048.rank) ∈ dot_S128x2048_S2048x4096_S128x4096_1_0_0_1_n_n.lhsNonContracting by decide)]
  rfl

/-- The product's dimension numbers keep the right operand's columns. -/
theorem dot1_rhs1 (i : S128x4096.Idx) (q : dot_S128x2048_S2048x4096_S128x4096_1_0_0_1_n_n.contr.Idx) :
    (dot_S128x2048_S2048x4096_S128x4096_1_0_0_1_n_n.rhsIdx i q 1).val = (i 1).val := by
  unfold DotDims.rhsIdx
  rw [dif_neg (show ¬(1 : Fin S2048x4096.rank) ∈ dot_S128x2048_S2048x4096_S128x4096_1_0_0_1_n_n.rhsBatch by decide),
    dif_pos (show (1 : Fin S2048x4096.rank) ∈ dot_S128x2048_S2048x4096_S128x4096_1_0_0_1_n_n.rhsNonContracting by decide)]
  rfl

/-- The first product plus its bias at (p, k): row p of the block against column k of the matrix, plus the bias's
    entry k. -/
theorem stPre_apply (X : FVec Ideal S128x2048 .f32) (v4 : FVec Ideal S2048x4096 .bf16) (v7 : FVec Ideal S4096 .f32)
    (p : Fin 128) (k : Fin 4096) :
    stPre X v4 v7 (ix2 p k) = (∑ d : Fin 2048, X (ix2 p d) * v4 (ix2 d k)) + v7 (ix1 k) := by
  unfold stPre
  rw [addf_apply, broadcastTo_1b_ab_apply, shapeCast_a_1a_apply, shapeCast_self]
  exact congrArg (· + v7 (ix1 k))
    (matmul_rows_cols dot_S128x2048_S2048x4096_S128x4096_1_0_0_1_n_n none rfl rfl rfl rfl dot1_lhs0 dot1_rhs1
      (truncf .bf16 X bitsLt_bf16_f32) v4 p k)

/-- The row mean at row p: the sum of row p, divided by 4096. -/
theorem stMean_apply (h : FVec Ideal S128x4096 .f32) (p : Fin 128) (u : Fin 1) :
    stMean h (ix2 p u) = Ideal.div (∑ k : Fin 4096, h (ix2 p k)) (Ideal.ofBits .f32 0x45800000#32) := by
  have e : shapeCast S128x1 (multiReduction (F := Ideal) .add [1] S128 h 0x00000000#32 reduces_S128x4096_S128 (.inl rfl) rfl)
      shapeCasts_S128_S128x1 (ix2 p u) = ∑ k : Fin 4096, h (ix2 p k) :=
    (Cert.LibLayout.shapeCast_a_a1_apply _ shapeCasts_S128_S128x1 p u).trans
      (Cert.LibRows.rowSum_apply h 0x00000000#32 reduces_S128x4096_S128 (.inl rfl) rfl p)
  exact congrArg (fun s => Ideal.div s (Ideal.ofBits .f32 0x45800000#32)) e

/-- The centred block at (p, k): the entry minus the mean of its row. -/
theorem stCen_apply (h : FVec Ideal S128x4096 .f32) (p : Fin 128) (k : Fin 4096) :
    stCen h (ix2 p k) = h (ix2 p k) - Ideal.div (∑ k' : Fin 4096, h (ix2 p k')) (Ideal.ofBits .f32 0x45800000#32) := by
  unfold stCen
  rw [subf_apply, Cert.LibLayout.broadcastTo_a1_ab_apply, stMean_apply]

/-- The reciprocal standard deviation at row p: from the mean of the squares of row p, regularized. -/
theorem stRstd_apply (d : FVec Ideal S128x4096 .f32) (p : Fin 128) (u : Fin 1) :
    stRstd d (ix2 p u)
      = Ideal.rsqrt (Ideal.div (∑ k : Fin 4096, d (ix2 p k) * d (ix2 p k)) (Ideal.ofBits .f32 0x45800000#32)
          + Ideal.ofBits .f32 0x3727C5AC#32) := by
  show Ideal.rsqrt (stMean (mulf d d) (ix2 p u) + Ideal.ofBits .f32 0x3727C5AC#32) = _
  rw [stMean_apply]
  rfl

/-- Scale, shift and the positive part at (p, k). -/
theorem stAct_apply (d : FVec Ideal S128x4096 .f32) (v25 v31 : FVec Ideal S4096 .f32) (p : Fin 128) (k : Fin 4096) :
    stAct d v25 v31 (ix2 p k)
      = max (d (ix2 p k) * (stRstd d (ix2 p (0 : Fin 1)) * v25 (ix1 k)) + v31 (ix1 k)) (Ideal.ofBits .f32 0x00000000#32) := by
  unfold stAct
  rw [maximumf_apply, addf_apply, mulf_apply, mulf_apply, Cert.LibLayout.broadcastTo_a1_ab_apply,
    broadcastTo_1b_ab_apply, broadcastTo_1b_ab_apply, shapeCast_a_1a_apply, shapeCast_a_1a_apply]
  rfl

/-! ## The stages of a block whose row p is a given row, against the specification -/

section Row

variable (X : FVec Ideal S128x2048 .f32) (v4 : FVec Ideal S2048x4096 .bf16) (v7 v25 v31 : FVec Ideal S4096 .f32)
  (p : Fin 128) (Xr : Fin 2048 → EReal) (hX : ∀ d : Fin 2048, X (ix2 p d) = Xr d)

include hX

/-- The first product plus bias of the block, at row p, is the specification's for the row. -/
theorem pre_row (k : Fin 4096) : stPre X v4 v7 (ix2 p k) = Cert.Spec.pre Xr v4 v7 k := by
  rw [stPre_apply]
  unfold Cert.Spec.pre
  exact congrArg (· + v7 (ix1 k)) (Finset.sum_congr rfl fun d _ => by rw [hX d])

/-- The centred block at row p is the specification's centred row. -/
theorem cen_row (k : Fin 4096) : stCen (stPre X v4 v7) (ix2 p k) = Cert.Spec.cen Xr v4 v7 k := by
  rw [stCen_apply, pre_row X v4 v7 p Xr hX k]
  unfold Cert.Spec.cen Cert.Spec.mean
  exact congrArg (fun s => Cert.Spec.pre Xr v4 v7 k - Ideal.div s (Ideal.ofBits .f32 0x45800000#32))
    (Finset.sum_congr rfl fun k' _ => pre_row X v4 v7 p Xr hX k')

/-- The reciprocal standard deviation of the centred block at row p is the specification's. -/
theorem rstd_row (u : Fin 1) : stRstd (stCen (stPre X v4 v7)) (ix2 p u) = Cert.Spec.rstd Xr v4 v7 := by
  rw [stRstd_apply]
  unfold Cert.Spec.rstd Cert.Spec.var
  exact congrArg (fun s => Ideal.rsqrt (Ideal.div s (Ideal.ofBits .f32 0x45800000#32) + Ideal.ofBits .f32 0x3727C5AC#32))
    (Finset.sum_congr rfl fun k _ => by rw [cen_row X v4 v7 p Xr hX k])

/-- The hidden block after scale, shift and the positive part, at row p, is the specification's hidden row. -/
theorem act_of_row (k : Fin 4096) :
    stAct (stCen (stPre X v4 v7)) v25 v31 (ix2 p k) = Cert.Spec.act Xr v4 v7 v25 v31 k := by
  rw [stAct_apply, rstd_row X v4 v7 p Xr hX, cen_row X v4 v7 p Xr hX k]
  rfl

end Row

/-! ## The kernel's own blocks -/

/-- Row p of the joined block is the specification's joined row. -/
theorem joined_row (v0 v1 : Vec Ideal S128x1024 .f32) (p : Fin 128) (d : Fin 2048) :
    k0_pay3 (F := Ideal) v0 v1 (ix2 p d) = Cert.Spec.joined v0 v1 p d := by
  unfold k0_pay3 Cert.Spec.joined
  exact Cert.LibConcat.concat_cols_apply v0 v1 _ rfl p d

/-- Row p of the hidden block the body hands on is the specification's hidden row of the joined row. -/
theorem act_row (v0 v1 : Vec Ideal S128x1024 .f32) (v4 : Vec Ideal S2048x4096 .bf16) (v7 v25 v31 : Vec Ideal S4096 .f32)
    (p : Fin 128) (k : Fin 4096) :
    k0_pay4 (F := Ideal) v0 v1 v4 v7 v25 v31 (ix2 p k)
      = Cert.Spec.act (Cert.Spec.joined v0 v1 p) v4 v7 v25 v31 k := by
  rw [pay4_eq, truncf_apply]
  exact act_of_row (k0_pay3 v0 v1) v4 v7 v25 v31 p (Cert.Spec.joined v0 v1 p) (fun d => joined_row v0 v1 p d) k

end Cert.RowNorm

end
-- ==== Proof.KernelRow.lean ====
/-
  What the kernel's body leaves in its two output blocks, as the specification applied to the body's input blocks.

  The body works on a block of 128 rows.  It joins the two input blocks side by side, and every later operation
  treats the rows alike: the products contract over columns, the two sums of the normalization run along a row,
  the broadcasts repeat a row vector down the rows or a column vector along the rows.  So row `p` of either output
  block is the specification's row function of row `p` of the joined input block: the hidden row by the first half
  of the body, the gates by the second product and the logistic function, the class scores by the third product of
  the gated row.  Each load reads its whole buffer, and each output is stored whole, once.
-/
import proofs.«106940_j13400297964136_2_alg».proof.Proof.RowGate
import proofs.«106940_j13400297964136_2_alg».proof.Proof.RowNorm

noncomputable section

namespace Cert.KernelRow

open Idealize.ShloMosaic Idealize.ShloMosaic.ValueIdx Cert.KernelIdeal Cert.KernelIdeal.Gen Cert.RowStages Cert.RowGate

/-- A rectangle that starts at the origin of a two-axis buffer. -/
theorem origin2 : (![0, 0] : Fin 2 → Nat) = fun _ => 0 := funext fun a => by fin_cases a <;> rfl
/-- A rectangle that starts at the origin of a one-axis buffer. -/
theorem origin1 : (![0] : Fin 1 → Nat) = fun _ => 0 := funext fun a => by fin_cases a; rfl

/-- The block of gates the body stores: the specification's gates of the body's input blocks. -/
theorem out_gates (x0 x1 : Vec Ideal S128x1024 .f32) (x2 : Vec Ideal S2048x4096 .bf16) (x3 x4 x5 : Vec Ideal S4096 .f32)
    (x6 : Vec Ideal S4096x2048 .bf16) (x7 : Vec Ideal S2048 .f32) (x8 : Vec Ideal S2048x128 .bf16) (x9 : Vec Ideal S128 .f32) :
    out0_10 (F := Ideal) x0 x1 x2 x3 x4 x5 x6 x7 x8 x9 = Cert.Spec.gates x0 x1 x2 x3 x4 x5 x6 x7 := by
  unfold out0_10
  rw [View.canon_unit_zero origin2]
  simp only [View.ld_unit_zero (S := S128x1024) origin2, View.ld_unit_zero (S := S2048x4096) origin2,
    View.ld_unit_zero (S := S4096) origin1, View.ld_unit_zero (S := S4096x2048) origin2, View.ld_unit_zero (S := S2048) origin1]
  funext y
  obtain ⟨p, j, rfl⟩ : ∃ (p : Fin 128) (j : Fin 2048), y = ix2 p j := ⟨y 0, y 1, eq_ix2 y⟩
  rw [gate_row _ x6 x7 (Cert.Spec.act (Cert.Spec.joined x0 x1 p) x2 x3 x4 x5) p
    (fun k => Cert.RowNorm.act_row x0 x1 x2 x3 x4 x5 p k) j]
  rfl

/-- The block of class scores the body stores (128 class columns): the specification's scores of the body's input
    blocks. -/
theorem out_scores (x0 x1 : Vec Ideal S128x1024 .f32) (x2 : Vec Ideal S2048x4096 .bf16) (x3 x4 x5 : Vec Ideal S4096 .f32)
    (x6 : Vec Ideal S4096x2048 .bf16) (x7 : Vec Ideal S2048 .f32) (x8 : Vec Ideal S2048x128 .bf16) (x9 : Vec Ideal S128 .f32) :
    out0_11 (F := Ideal) x0 x1 x2 x3 x4 x5 x6 x7 x8 x9 = Cert.Spec.scores x0 x1 x2 x3 x4 x5 x6 x7 x8 x9 := by
  unfold out0_11
  rw [View.canon_unit_zero origin2]
  simp only [View.ld_unit_zero (S := S128x1024) origin2, View.ld_unit_zero (S := S2048x4096) origin2,
    View.ld_unit_zero (S := S4096) origin1, View.ld_unit_zero (S := S4096x2048) origin2, View.ld_unit_zero (S := S2048) origin1,
    View.ld_unit_zero (S := S2048x128) origin2, View.ld_unit_zero (S := S128) origin1]
  funext y
  obtain ⟨p, c, rfl⟩ : ∃ (p : Fin 128) (c : Fin 128), y = ix2 p c := ⟨y 0, y 1, eq_ix2 y⟩
  rw [scores_row _ _ _ _ x7 x8 x9 (Cert.Spec.joined x0 x1 p)
    (Cert.Spec.gate (Cert.Spec.joined x0 x1 p) x2 x3 x4 x5 x6 x7) p (fun j => Cert.RowNorm.joined_row x0 x1 p j)
    (fun j => (gate_row _ x6 x7 (Cert.Spec.act (Cert.Spec.joined x0 x1 p) x2 x3 x4 x5) p
      (fun k => Cert.RowNorm.act_row x0 x1 x2 x3 x4 x5 p k) j).trans rfl) c]
  rfl

end Cert.KernelRow

end
-- ==== Proof.Blocks.lean ====
/-
  From blocks of rows to the two result arrays.

  The region runs on a grid of 256 points.  At point `t` the two inputs are staged in blocks of 128 rows (rows
  `128 t … 128 t + 127`), every parameter array whole, and the body's two results are written back to rows
  `128 t … 128 t + 127` of the gates array and of the class-scores array.  The body's results are the
  specification's gates and class scores of its input blocks, and the specification treats every row alike and
  independently of the others: row `p` of the gates (scores) of a block of rows is row `128 t + p` of the gates
  (scores) of the whole inputs.  So each point writes back its block of ONE whole-array function, and since the
  256 blocks tile the 32768 rows (row `r` lies in block `r / 128`), each result array ends holding that function.
-/
import proofs.«106940_j13400297964136_2_alg».proof.Proof.Gen.KernelIdeal.Frame
import proofs.«106940_j13400297964136_2_alg».proof.Proof.Spec
import proofs.«106940_j13400297964136_2_alg».proof.Proof.KernelRow
import Idealize.ShloMosaic.Lib.Pipeline.Value
import Idealize.ShloMosaic.Lib.ValueIdx

set_option maxRecDepth 16384

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The index maps, decided over the grid -/

/-- The two row-blocked inputs and the two outputs sit at block row `t`, block column 0, at grid point `t`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The parameter windows sit at block 0 on every axis at every grid point: their block is the whole array. -/
theorem idx_whole : ∀ t : Fin cfg0.N,
    win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-! ## The input blocks -/

/-- Block `t` of the first input is its rows `128 t … 128 t + 127`. -/
theorem iblk0_apply (c : Dev nD) (t : Fin cfg0.N) (y : S128x1024.Idx) (k : S32768x1024.Idx)
    (hk0 : (k 0).val = 128 * t.val + (y 0).val) (hk1 : (k 1).val = (y 1).val) :
    (iblk m c 0 t : S128x1024.Idx → EReal) y = (V m c main_arg0 : S32768x1024.Idx → EReal) k := by
  obtain ⟨e0, e1, -⟩ := idx_rows t
  show (V m c main_arg0 : S32768x1024.Idx → EReal) (((cfg0.win 0).blk t).view.emb y) = _
  refine congrArg (V m c main_arg0 : S32768x1024.Idx → EReal) ?_
  funext a; apply Fin.ext
  match a with
  | ⟨0, _⟩ => show win0_0.index t (0 : Fin 2) * 128 + 1 * (y 0).val = (k 0).val; rw [e0, hk0]; omega
  | ⟨1, _⟩ => show win0_0.index t (1 : Fin 2) * 1024 + 1 * (y 1).val = (k 1).val; rw [e1, hk1]; omega

/-- Block `t` of the second input is its rows `128 t … 128 t + 127`. -/
theorem iblk1_apply (c : Dev nD) (t : Fin cfg0.N) (y : S128x1024.Idx) (k : S32768x1024.Idx)
    (hk0 : (k 0).val = 128 * t.val + (y 0).val) (hk1 : (k 1).val = (y 1).val) :
    (iblk m c 1 t : S128x1024.Idx → EReal) y = (V m c main_arg1 : S32768x1024.Idx → EReal) k := by
  obtain ⟨-, -, e0, e1, -⟩ := idx_rows t
  show (V m c main_arg1 : S32768x1024.Idx → EReal) (((cfg0.win 1).blk t).view.emb y) = _
  refine congrArg (V m c main_arg1 : S32768x1024.Idx → EReal) ?_
  funext a; apply Fin.ext
  match a with
  | ⟨0, _⟩ => show win0_1.index t (0 : Fin 2) * 128 + 1 * (y 0).val = (k 0).val; rw [e0, hk0]; omega
  | ⟨1, _⟩ => show win0_1.index t (1 : Fin 2) * 1024 + 1 * (y 1).val = (k 1).val; rw [e1, hk1]; omega

/-- The block of the first projection is the whole array. -/
theorem iblk2_eq (c : Dev nD) (t : Fin cfg0.N) :
    (iblk m c 2 t : S2048x4096.Idx → EReal) = (V m c main_v0 : S2048x4096.Idx → EReal) := by
  obtain ⟨e0, e1, -⟩ := idx_whole t
  funext y
  show (V m c main_v0 : S2048x4096.Idx → EReal) (((cfg0.win 2).blk t).view.emb y) = _
  refine congrArg (V m c main_v0 : S2048x4096.Idx → EReal) ?_
  funext a; apply Fin.ext
  match a with
  | ⟨0, _⟩ => show win0_2.index t (0 : Fin 2) * 2048 + 1 * (y 0).val = (y 0).val; rw [e0]; omega
  | ⟨1, _⟩ => show win0_2.index t (1 : Fin 2) * 4096 + 1 * (y 1).val = (y 1).val; rw [e1]; omega

/-- The block of the first bias is the whole vector. -/
theorem iblk3_eq (c : Dev nD) (t : Fin cfg0.N) :
    (iblk m c 3 t : S4096.Idx → EReal) = (V m c main_arg3 : S4096.Idx → EReal) := by
  obtain ⟨-, -, e0, -⟩ := idx_whole t
  funext y
  show (V m c main_arg3 : S4096.Idx → EReal) (((cfg0.win 3).blk t).view.emb y) = _
  refine congrArg (V m c main_arg3 : S4096.Idx → EReal) ?_
  funext a; apply Fin.ext
  match a with
  | ⟨0, _⟩ => show win0_3.index t (0 : Fin 1) * 4096 + 1 * (y 0).val = (y 0).val; rw [e0]; omega

/-- The block of the normalization's scale is the whole vector. -/
theorem iblk4_eq (c : Dev nD) (t : Fin cfg0.N) :
    (iblk m c 4 t : S4096.Idx → EReal) = (V m c main_arg4 : S4096.Idx → EReal) := by
  obtain ⟨-, -, -, e0, -⟩ := idx_whole t
  funext y
  show (V m c main_arg4 : S4096.Idx → EReal) (((cfg0.win 4).blk t).view.emb y) = _
  refine congrArg (V m c main_arg4 : S4096.Idx → EReal) ?_
  funext a; apply Fin.ext
  match a with
  | ⟨0, _⟩ => show win0_4.index t (0 : Fin 1) * 4096 + 1 * (y 0).val = (y 0).val; rw [e0]; omega

/-- The block of the normalization's shift is the whole vector. -/
theorem iblk5_eq (c : Dev nD) (t : Fin cfg0.N) :
    (iblk m c 5 t : S4096.Idx → EReal) = (V m c main_arg5 : S4096.Idx → EReal) := by
  obtain ⟨-, -, -, -, e0, -⟩ := idx_whole t
  funext y
  show (V m c main_arg5 : S4096.Idx → EReal) (((cfg0.win 5).blk t).view.emb y) = _
  refine congrArg (V m c main_arg5 : S4096.Idx → EReal) ?_
  funext a; apply Fin.ext
  match a with
  | ⟨0, _⟩ => show win0_5.index t (0 : Fin 1) * 4096 + 1 * (y 0).val = (y 0).val; rw [e0]; omega

/-- The block of the second projection is the whole array. -/
theorem iblk6_eq (c : Dev nD) (t : Fin cfg0.N) :
    (iblk m c 6 t : S4096x2048.Idx → EReal) = (V m c main_v1 : S4096x2048.Idx → EReal) := by
  obtain ⟨-, -, -, -, -, e0, e1, -⟩ := idx_whole t
  funext y
  show (V m c main_v1 : S4096x2048.Idx → EReal) (((cfg0.win 6).blk t).view.emb y) = _
  refine congrArg (V m c main_v1 : S4096x2048.Idx → EReal) ?_
  funext a; apply Fin.ext
  match a with
  | ⟨0, _⟩ => show win0_6.index t (0 : Fin 2) * 4096 + 1 * (y 0).val = (y 0).val; rw [e0]; omega
  | ⟨1, _⟩ => show win0_6.index t (1 : Fin 2) * 2048 + 1 * (y 1).val = (y 1).val; rw [e1]; omega

/-- The block of the second bias is the whole vector. -/
theorem iblk7_eq (c : Dev nD) (t : Fin cfg0.N) :
    (iblk m c 7 t : S2048.Idx → EReal) = (V m c main_arg7 : S2048.Idx → EReal) := by
  obtain ⟨-, -, -, -, -, -, -, e0, -⟩ := idx_whole t
  funext y
  show (V m c main_arg7 : S2048.Idx → EReal) (((cfg0.win 7).blk t).view.emb y) = _
  refine congrArg (V m c main_arg7 : S2048.Idx → EReal) ?_
  funext a; apply Fin.ext
  match a with
  | ⟨0, _⟩ => show win0_7.index t (0 : Fin 1) * 2048 + 1 * (y 0).val = (y 0).val; rw [e0]; omega

/-- The block of the (widened) last projection is the whole array. -/
theorem iblk8_eq (c : Dev nD) (t : Fin cfg0.N) :
    (iblk m c 8 t : S2048x128.Idx → EReal) = (V m c main_v8 : S2048x128.Idx → EReal) := by
  obtain ⟨-, -, -, -, -, -, -, -, e0, e1, -⟩ := idx_whole t
  funext y
  show (V m c main_v8 : S2048x128.Idx → EReal) (((cfg0.win 8).blk t).view.emb y) = _
  refine congrArg (V m c main_v8 : S2048x128.Idx → EReal) ?_
  funext a; apply Fin.ext
  match a with
  | ⟨0, _⟩ => show win0_8.index t (0 : Fin 2) * 2048 + 1 * (y 0).val = (y 0).val; rw [e0]; omega
  | ⟨1, _⟩ => show win0_8.index t (1 : Fin 2) * 128 + 1 * (y 1).val = (y 1).val; rw [e1]; omega

/-- The block of the (widened) last bias is the whole vector. -/
theorem iblk9_eq (c : Dev nD) (t : Fin cfg0.N) :
    (iblk m c 9 t : S128.Idx → EReal) = (V m c main_v7 : S128.Idx → EReal) := by
  obtain ⟨-, -, -, -, -, -, -, -, -, -, e0⟩ := idx_whole t
  funext y
  show (V m c main_v7 : S128.Idx → EReal) (((cfg0.win 9).blk t).view.emb y) = _
  refine congrArg (V m c main_v7 : S128.Idx → EReal) ?_
  funext a; apply Fin.ext
  match a with
  | ⟨0, _⟩ => show win0_9.index t (0 : Fin 1) * 128 + 1 * (y 0).val = (y 0).val; rw [e0]; omega

/-! ## A block of rows of the specification -/

/-- The joined row depends on that one row of each input only. -/
theorem joined_congr {a b : ℕ} (x1 x2 : (⟨2, ![b, 1024]⟩ : Shape).Idx → EReal) (X1 X2 : (⟨2, ![a, 1024]⟩ : Shape).Idx → EReal)
    (p : Fin b) (r : Fin a)
    (h1 : ∀ d : Fin 1024, x1 (ix2 p d) = X1 (ix2 r d)) (h2 : ∀ d : Fin 1024, x2 (ix2 p d) = X2 (ix2 r d)) :
    Cert.Spec.joined x1 x2 p = Cert.Spec.joined X1 X2 r := by
  funext d
  unfold Cert.Spec.joined
  split
  · exact h1 _
  · exact h2 _

section Block

variable (x1 x2 : S128x1024.Idx → EReal) (X1 X2 : S32768x1024.Idx → EReal)
  (W1 : S2048x4096.Idx → EReal) (b1 g β : S4096.Idx → EReal) (W2 : S4096x2048.Idx → EReal) (b2 : S2048.Idx → EReal)
  (tv : ℕ)
  (h1 : ∀ (y : S128x1024.Idx) (k : S32768x1024.Idx), (k 0).val = 128 * tv + (y 0).val → (k 1).val = (y 1).val → x1 y = X1 k)
  (h2 : ∀ (y : S128x1024.Idx) (k : S32768x1024.Idx), (k 0).val = 128 * tv + (y 0).val → (k 1).val = (y 1).val → x2 y = X2 k)

include h1 h2 in
/-- Row `p` of block `tv` joins to the same row as row `128 tv + p` of the whole inputs. -/
theorem joined_block (p : Fin 128) (r : Fin 32768) (hr : r.val = 128 * tv + p.val) :
    Cert.Spec.joined x1 x2 p = Cert.Spec.joined X1 X2 r :=
  joined_congr x1 x2 X1 X2 p r (fun d => h1 (ix2 p d) (ix2 r d) hr rfl) (fun d => h2 (ix2 p d) (ix2 r d) hr rfl)

include h1 h2 in
/-- The gates of a block of rows are those rows of the gates of the whole inputs. -/
theorem gates_block (y : S128x2048.Idx) (i : S32768x2048.Idx)
    (hi0 : (i 0).val = 128 * tv + (y 0).val) (hi1 : (i 1).val = (y 1).val) :
    Cert.Spec.gates x1 x2 W1 b1 g β W2 b2 y = Cert.Spec.gates X1 X2 W1 b1 g β W2 b2 i := by
  show Cert.Spec.gate (Cert.Spec.joined x1 x2 (y 0)) W1 b1 g β W2 b2 (y 1)
     = Cert.Spec.gate (Cert.Spec.joined X1 X2 (i 0)) W1 b1 g β W2 b2 (i 1)
  rw [joined_block x1 x2 X1 X2 tv h1 h2 (y 0) (i 0) hi0]
  exact congrArg (Cert.Spec.gate (Cert.Spec.joined X1 X2 (i 0)) W1 b1 g β W2 b2) (Fin.ext hi1.symm)

include h1 h2 in
/-- The class scores of a block of rows are those rows of the class scores of the whole inputs. -/
theorem scores_block (W3 : S2048x128.Idx → EReal) (b3 : S128.Idx → EReal) (y : S128x128.Idx) (i : S32768x128.Idx)
    (hi0 : (i 0).val = 128 * tv + (y 0).val) (hi1 : (i 1).val = (y 1).val) :
    Cert.Spec.scores x1 x2 W1 b1 g β W2 b2 W3 b3 y = Cert.Spec.scores X1 X2 W1 b1 g β W2 b2 W3 b3 i := by
  show Cert.Spec.cls (Cert.Spec.joined x1 x2 (y 0)) W1 b1 g β W2 b2 W3 b3 (y 1)
     = Cert.Spec.cls (Cert.Spec.joined X1 X2 (i 0)) W1 b1 g β W2 b2 W3 b3 (i 1)
  rw [joined_block x1 x2 X1 X2 tv h1 h2 (y 0) (i 0) hi0]
  exact congrArg (Cert.Spec.cls (Cert.Spec.joined X1 X2 (i 0)) W1 b1 g β W2 b2 W3 b3) (Fin.ext hi1.symm)

end Block

/-! ## What each grid point writes back -/

/-- Point `t` writes back block `t` of the gates of the whole inputs. -/
theorem flushed_gates_eq (c : Dev nD) (t : Fin cfg0.N) :
    (dats m 0 c).flushed 10 t = ((cfg0.win 10).blk t).view.read (Elt Ideal)
      (Cert.Spec.gates (V m c main_arg0) (V m c main_arg1) (V m c main_v0) (V m c main_arg3) (V m c main_arg4)
        (V m c main_arg5) (V m c main_v1) (V m c main_arg7)) := by
  show (cfg0.win 10).cut (grid0.coords t) ((dats m 0 c).after 10 t) = _
  rw [after0_10, Cert.KernelRow.out_gates, iblk2_eq, iblk3_eq, iblk4_eq, iblk5_eq, iblk6_eq, iblk7_eq]
  obtain ⟨-, -, -, -, e0, e1, -⟩ := idx_rows t
  funext y
  refine gates_block (iblk m c 0 t) (iblk m c 1 t) (V m c main_arg0) (V m c main_arg1) (V m c main_v0) (V m c main_arg3)
    (V m c main_arg4) (V m c main_arg5) (V m c main_v1) (V m c main_arg7) t.val (iblk0_apply m c t) (iblk1_apply m c t)
    y (((cfg0.win 10).blk t).view.emb y) ?_ ?_
  · show win0_10.index t (0 : Fin 2) * 128 + 1 * (y 0).val = _; rw [e0]; omega
  · show win0_10.index t (1 : Fin 2) * 2048 + 1 * (y 1).val = _; rw [e1]; omega

/-- Point `t` writes back block `t` of the class scores of the whole inputs. -/
theorem flushed_scores_eq (c : Dev nD) (t : Fin cfg0.N) :
    (dats m 0 c).flushed 11 t = ((cfg0.win 11).blk t).view.read (Elt Ideal)
      (Cert.Spec.scores (V m c main_arg0) (V m c main_arg1) (V m c main_v0) (V m c main_arg3) (V m c main_arg4)
        (V m c main_arg5) (V m c main_v1) (V m c main_arg7) (V m c main_v8) (V m c main_v7)) := by
  show (cfg0.win 11).cut (grid0.coords t) ((dats m 0 c).after 11 t) = _
  rw [after0_11, Cert.KernelRow.out_scores, iblk2_eq, iblk3_eq, iblk4_eq, iblk5_eq, iblk6_eq, iblk7_eq, iblk8_eq, iblk9_eq]
  obtain ⟨-, -, -, -, -, -, e0, e1⟩ := idx_rows t
  funext y
  refine scores_block (iblk m c 0 t) (iblk m c 1 t) (V m c main_arg0) (V m c main_arg1) (V m c main_v0) (V m c main_arg3)
    (V m c main_arg4) (V m c main_arg5) (V m c main_v1) (V m c main_arg7) t.val (iblk0_apply m c t) (iblk1_apply m c t)
    (V m c main_v8) (V m c main_v7) y (((cfg0.win 11).blk t).view.emb y) ?_ ?_
  · show win0_11.index t (0 : Fin 2) * 128 + 1 * (y 0).val = _; rw [e0]; omega
  · show win0_11.index t (1 : Fin 2) * 128 + 1 * (y 1).val = _; rw [e1]; omega

/-! ## The blocks tile the two result arrays -/

/-- An index of the gates array is in point `t`'s block iff each coordinate is in the block's range on its axis. -/
theorem mem_blk_gates (t : Fin cfg0.N) (i : S32768x2048.Idx) :
    i ∈ ((cfg0.win 10).blk t).view.set ↔ ∀ a : Fin 2, win0_10.index t a * S128x2048.size a ≤ (i a).val
      ∧ (i a).val < win0_10.index t a * S128x2048.size a + S128x2048.size a := by
  show i ∈ ((View.whole main_v9_0).slice (win0_10.rect t)).set ↔ _
  rw [View.set_slice_whole, Rect.mem_set_unit]
  exact Iff.rfl

/-- An index of the scores array is in point `t`'s block iff each coordinate is in the block's range on its axis. -/
theorem mem_blk_scores (t : Fin cfg0.N) (i : S32768x128.Idx) :
    i ∈ ((cfg0.win 11).blk t).view.set ↔ ∀ a : Fin 2, win0_11.index t a * S128x128.size a ≤ (i a).val
      ∧ (i a).val < win0_11.index t a * S128x128.size a + S128x128.size a := by
  show i ∈ ((View.whole main_v9_1).slice (win0_11.rect t)).set ↔ _
  rw [View.set_slice_whole, Rect.mem_set_unit]
  exact Iff.rfl

/-- Row `r` of the gates array is in the block of point `r / 128`, which writes back. -/
theorem cover_gates (i : S32768x2048.Idx) :
    ∃ t : Fin cfg0.N, (cfg0.win 10).flush t = true ∧ i ∈ ((cfg0.win 10).blk t).view.set := by
  have hi0 : (i 0).val < 32768 := (i 0).isLt
  have hi1 : (i 1).val < 2048 := (i 1).isLt
  obtain ⟨t, ht⟩ : ∃ t : Fin cfg0.N, t.val = (i 0).val / 128 :=
    ⟨⟨(i 0).val / 128, by show (i 0).val / 128 < 256; omega⟩, rfl⟩
  obtain ⟨-, -, -, -, e0, e1, -⟩ := idx_rows t
  refine ⟨t, flush0_10 t, ?_⟩
  rw [mem_blk_gates]
  intro a
  match a with
  | ⟨0, _⟩ =>
    show win0_10.index t (0 : Fin 2) * 128 ≤ (i 0).val ∧ (i 0).val < win0_10.index t (0 : Fin 2) * 128 + 128
    rw [e0, ht]; omega
  | ⟨1, _⟩ =>
    show win0_10.index t (1 : Fin 2) * 2048 ≤ (i 1).val ∧ (i 1).val < win0_10.index t (1 : Fin 2) * 2048 + 2048
    rw [e1]; omega

/-- Row `r` of the scores array is in the block of point `r / 128`, which writes back. -/
theorem cover_scores (i : S32768x128.Idx) :
    ∃ t : Fin cfg0.N, (cfg0.win 11).flush t = true ∧ i ∈ ((cfg0.win 11).blk t).view.set := by
  have hi0 : (i 0).val < 32768 := (i 0).isLt
  have hi1 : (i 1).val < 128 := (i 1).isLt
  obtain ⟨t, ht⟩ : ∃ t : Fin cfg0.N, t.val = (i 0).val / 128 :=
    ⟨⟨(i 0).val / 128, by show (i 0).val / 128 < 256; omega⟩, rfl⟩
  obtain ⟨-, -, -, -, -, -, e0, e1⟩ := idx_rows t
  refine ⟨t, flush0_11 t, ?_⟩
  rw [mem_blk_scores]
  intro a
  match a with
  | ⟨0, _⟩ =>
    show win0_11.index t (0 : Fin 2) * 128 ≤ (i 0).val ∧ (i 0).val < win0_11.index t (0 : Fin 2) * 128 + 128
    rw [e0, ht]; omega
  | ⟨1, _⟩ =>
    show win0_11.index t (1 : Fin 2) * 128 ≤ (i 1).val ∧ (i 1).val < win0_11.index t (1 : Fin 2) * 128 + 128
    rw [e1]; omega

/-! ## The two result arrays after the region -/

/-- The gates array after the region: the specification's gates of the arrays the region finds. -/
theorem final_gates (c : Dev nD) :
    (dats m 0 c).arrAt 10 cfg0.N
      = Cert.Spec.gates (V m c main_arg0) (V m c main_arg1) (V m c main_v0) (V m c main_arg3) (V m c main_arg4)
          (V m c main_arg5) (V m c main_v1) (V m c main_arg7) :=
  (dats m 0 c).arrAt_eq_of_cover 10 _ (fun t _ => flushed_gates_eq m c t) cover_gates

/-- The scores array after the region (128 class columns): the specification's class scores of the arrays the
    region finds. -/
theorem final_scores (c : Dev nD) :
    (dats m 0 c).arrAt 11 cfg0.N
      = Cert.Spec.scores (V m c main_arg0) (V m c main_arg1) (V m c main_v0) (V m c main_arg3) (V m c main_arg4)
          (V m c main_arg5) (V m c main_v1) (V m c main_arg7) (V m c main_v8) (V m c main_v7) :=
  (dats m 0 c).arrAt_eq_of_cover 11 _ (fun t _ => flushed_scores_eq m c t) cover_scores

end Cert.KernelBlocks

end
-- ==== Proof.LibScatter.lean ====
/-
  `stablehlo.scatter` whose body returns the update (`x.at[…].set(v)`), read at ONE operand index.

  The scatter is a left fold over the update positions in row-major order; each step overwrites the operand
  element its update lands on and leaves every other element alone. So at an operand index `i'`:
  * if no update lands on `i'`, the result there is the operand's element (`Host.scatter_apply_of_miss`,
    for any body);
  * if exactly one update index `j` lands on `i'` and the body returns the update, the result there is
    `upd j` (`Host.scatter_apply_of_hit`).
  Both are proved for the fold over an arbitrary list of positions first, by induction on the list.
-/
import Idealize.ShloMosaic.PureOps.ShapeOps

namespace Idealize.ShloMosaic

variable {s si u : Shape} {α : Type} {w : Nat}

/-- The fold over any list of update positions leaves operand index `i'` alone when no listed update lands on it. -/
theorem Host.scatter_fold_miss (d : ScatterDims s si u) (f : α → α → α) (idx : IVec si w) (upd : u.Idx → α) (i' : s.Idx) :
    ∀ (l : List (Fin u.numel)) (x : s.Idx → α),
      (∀ n ∈ l, d.resultIdx? (u.rowMajor.symm n) idx ≠ some i') →
      (l.foldl (fun r n =>
        match d.resultIdx? (u.rowMajor.symm n) idx with
        | some i => fun i' => if i' = i then f (r i) (upd (u.rowMajor.symm n)) else r i'
        | none => r) x) i' = x i' := by
  intro l
  induction l with
  | nil => intro x _; rfl
  | cons a l ih =>
    intro x h
    rw [List.foldl_cons, ih _ (fun n hn => h n (List.mem_cons_of_mem _ hn))]
    have ha := h a (List.mem_cons_self ..)
    generalize d.resultIdx? (u.rowMajor.symm a) idx = o at ha
    cases o with
    | none => rfl
    | some i => exact if_neg (fun e => ha (by rw [e]))

/-- The fold over a list of update positions that holds `n₀`, the only listed position landing on `i'`, ends at
    `n₀`'s update there, when the body returns the update. -/
theorem Host.scatter_fold_hit (d : ScatterDims s si u) (f : α → α → α) (hf : ∀ a b, f a b = b) (idx : IVec si w)
    (upd : u.Idx → α) (i' : s.Idx) (n₀ : Fin u.numel) (hn₀ : d.resultIdx? (u.rowMajor.symm n₀) idx = some i') :
    ∀ (l : List (Fin u.numel)) (x : s.Idx → α), n₀ ∈ l →
      (∀ n ∈ l, d.resultIdx? (u.rowMajor.symm n) idx = some i' → n = n₀) →
      (l.foldl (fun r n =>
        match d.resultIdx? (u.rowMajor.symm n) idx with
        | some i => fun i' => if i' = i then f (r i) (upd (u.rowMajor.symm n)) else r i'
        | none => r) x) i' = upd (u.rowMajor.symm n₀) := by
  intro l
  induction l with
  | nil => intro x hm; exact absurd hm (List.not_mem_nil)
  | cons a l ih =>
    intro x hm huniq
    rw [List.foldl_cons]
    by_cases hl : n₀ ∈ l
    · exact ih _ hl (fun n hn => huniq n (List.mem_cons_of_mem _ hn))
    · have ha : a = n₀ := ((List.mem_cons.1 hm).resolve_right hl).symm
      subst ha
      rw [Host.scatter_fold_miss d f idx upd i' l _
        (fun n hn hres => hl ((huniq n (List.mem_cons_of_mem _ hn) hres) ▸ hn))]
      rw [hn₀]
      show (if i' = i' then f (x i') (upd (u.rowMajor.symm a)) else x i') = _
      rw [if_pos rfl, hf]

/-- A scatter read at an operand index no update lands on: the operand's element. -/
theorem Host.scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  unfold Host.scatter
  exact Host.scatter_fold_miss d f idx upd i' _ x (fun n _ => h _)

/-- A scatter whose body returns the update, read at an operand index exactly one update index `j` lands on:
    that update. -/
theorem Host.scatter_apply_of_hit (d : ScatterDims s si u) (f : α → α → α) (hf : ∀ a b, f a b = b) (x : s.Idx → α)
    (idx : IVec si w) (upd : u.Idx → α) (i' : s.Idx) (j : u.Idx) (hj : d.resultIdx? j idx = some i')
    (huniq : ∀ j', d.resultIdx? j' idx = some i' → j' = j) :
    Host.scatter d f x idx upd i' = upd j := by
  unfold Host.scatter
  have h := Host.scatter_fold_hit d f hf idx upd i' (u.rowMajor j)
    (by rw [Equiv.symm_apply_apply]; exact hj) (List.finRange _) x (List.mem_finRange _)
    (fun n _ hn => by rw [← huniq _ hn, Equiv.apply_symm_apply])
  rw [Equiv.symm_apply_apply] at h
  exact h

end Idealize.ShloMosaic
-- ==== Proof.HostSide.lean ====
/-
  The host operations around the kernel's region.

  Before the region the host prepares four arrays from the arguments.  Two are format changes of the first and
  the second projection, which over the extended reals are the identity.  The other two pad the last projection
  and its bias from 4 class columns to 128: an array of zeros is overwritten, from column 0 on, by the 4 given
  columns, so a column below 4 of the padded array is that column of the original.  (The overwrite is a scatter
  with one start index, 0, and a window as large as the update: update position (j, q) lands on operand position
  (0 + j, 0 + q) and on no other.)

  After the region the host keeps columns 0 to 3 of the 128 score columns.

  A class score depends on its own column of the last projection and on its own bias entry only, so the first 4
  of the 128 scores computed from the padded projection and bias are the 4 scores of the original ones.
-/
import proofs.«106940_j13400297964136_2_alg».proof.Proof.Gen.KernelIdeal.Frame
import proofs.«106940_j13400297964136_2_alg».proof.Proof.Spec
import proofs.«106940_j13400297964136_2_alg».proof.Proof.LibScatter
import Idealize.ShloMosaic.Lib.Pipeline.Value
import Idealize.ShloMosaic.Lib.ValueIdx
import Idealize.ShloMosaic.Lib.ValueLayout
import Idealize.ShloMosaic.Lib.StableHlo.Run

noncomputable section

namespace Cert.KernelHost

open Idealize.ShloMosaic Idealize.ShloMosaic.ValueIdx Idealize.ShloMosaic.TcCoe Idealize.ShloMosaic.StableHlo
open Cert.KernelIdeal Cert.KernelIdeal.Gen

/-! ## Where an update lands when the one start index is zero -/

section Matrix

/-- With the start index zero, the window starts at 0 on both axes. -/
theorem start_cols (idx : IVec S1 32) (hidx : ∀ k, idx k = 0#32) (j' : S2048x4.Idx) (a : Fin S2048x128.rank) :
    scatter_S2048x128_S1_S2048x4_01_n_1_0.start j' idx a = 0 := by
  unfold ScatterDims.start
  split
  · rw [hidx]; rfl
  · rfl

/-- The window is the whole update: the window coordinate on an axis is the update's own coordinate there. -/
theorem window_cols (j' : S2048x4.Idx) (a : Fin 2) :
    scatter_S2048x128_S1_S2048x4_01_n_1_0.window j' a = (j' a).val := by
  match a with
  | ⟨0, _⟩ => rfl
  | ⟨1, _⟩ => rfl

/-- So update position `(j, q)` lands on operand position `(j, q)`, always inside the operand. -/
theorem lands_cols (idx : IVec S1 32) (hidx : ∀ k, idx k = 0#32) (j' : S2048x4.Idx) :
    scatter_S2048x128_S1_S2048x4_01_n_1_0.resultIdx? j' idx
      = some (ix2 (j' 0) ⟨(j' 1).val, by have h : (j' 1).val < 4 := (j' 1).isLt; omega⟩) := by
  unfold ScatterDims.resultIdx?
  have hc : ∀ a, 0 ≤ scatter_S2048x128_S1_S2048x4_01_n_1_0.start j' idx a + scatter_S2048x128_S1_S2048x4_01_n_1_0.window j' a
      ∧ scatter_S2048x128_S1_S2048x4_01_n_1_0.start j' idx a + scatter_S2048x128_S1_S2048x4_01_n_1_0.window j' a < S2048x128.size a := by
    intro a
    rw [start_cols idx hidx, window_cols]
    match a with
    | ⟨0, _⟩ =>
      have h : (j' 0).val < 2048 := (j' 0).isLt
      exact ⟨by omega, by show (0 : Int) + ((j' 0).val : Int) < 2048; omega⟩
    | ⟨1, _⟩ =>
      have h : (j' 1).val < 4 := (j' 1).isLt
      exact ⟨by omega, by show (0 : Int) + ((j' 1).val : Int) < 128; omega⟩
  rw [dif_pos hc]
  refine congrArg some (funext fun a => Fin.ext ?_)
  show (scatter_S2048x128_S1_S2048x4_01_n_1_0.start j' idx a + scatter_S2048x128_S1_S2048x4_01_n_1_0.window j' a).toNat = _
  rw [start_cols idx hidx, window_cols]
  match a with
  | ⟨0, _⟩ => show ((0 : Int) + ((j' 0).val : Int)).toNat = (j' 0).val; omega
  | ⟨1, _⟩ => show ((0 : Int) + ((j' 1).val : Int)).toNat = (j' 1).val; omega

/-- Four columns written from column 0 on into a matrix of 128 columns: column `q < 4` of the result is column
    `q` of what was written, whatever the matrix held before. -/
theorem pad_cols (x : S2048x128.Idx → EReal) (idx : IVec S1 32) (hidx : ∀ k, idx k = 0#32) (W : S2048x4.Idx → EReal)
    (j : Fin 2048) (q : Fin 4) :
    Host.scatter scatter_S2048x128_S1_S2048x4_01_n_1_0 (fun _ b => b) x idx W (ix2 j ⟨q.val, by omega⟩) = W (ix2 j q) := by
  refine Host.scatter_apply_of_hit _ _ (fun _ _ => rfl) x idx W _ (ix2 j q) ?_ ?_
  · exact lands_cols idx hidx (ix2 j q)
  · intro j' h
    rw [lands_cols idx hidx] at h
    have h' := Option.some.inj h
    have h0 : j' 0 = j := congrArg (fun f : S2048x128.Idx => f 0) h'
    have h1 : (j' 1).val = q.val := congrArg (fun f : S2048x128.Idx => (f 1).val) h'
    funext a
    match a with
    | ⟨0, _⟩ => exact h0
    | ⟨1, _⟩ => exact Fin.ext h1

end Matrix

section Vector

/-- With the start index zero, the window starts at 0. -/
theorem start_bias (idx : IVec S1 32) (hidx : ∀ k, idx k = 0#32) (j' : S4.Idx) (a : Fin S128.rank) :
    scatter_S128_S1_S4_0_n_0_0.start j' idx a = 0 := by
  unfold ScatterDims.start
  split
  · rw [hidx]; rfl
  · rfl

/-- The window is the whole update. -/
theorem window_bias (j' : S4.Idx) (a : Fin 1) : scatter_S128_S1_S4_0_n_0_0.window j' a = (j' a).val := by
  match a with
  | ⟨0, _⟩ => rfl

/-- So update position `q` lands on operand position `q`. -/
theorem lands_bias (idx : IVec S1 32) (hidx : ∀ k, idx k = 0#32) (j' : S4.Idx) :
    scatter_S128_S1_S4_0_n_0_0.resultIdx? j' idx
      = some (ix1 ⟨(j' 0).val, by have h : (j' 0).val < 4 := (j' 0).isLt; omega⟩) := by
  unfold ScatterDims.resultIdx?
  have hc : ∀ a, 0 ≤ scatter_S128_S1_S4_0_n_0_0.start j' idx a + scatter_S128_S1_S4_0_n_0_0.window j' a
      ∧ scatter_S128_S1_S4_0_n_0_0.start j' idx a + scatter_S128_S1_S4_0_n_0_0.window j' a < S128.size a := by
    intro a
    rw [start_bias idx hidx, window_bias]
    match a with
    | ⟨0, _⟩ =>
      have h : (j' 0).val < 4 := (j' 0).isLt
      exact ⟨by omega, by show (0 : Int) + ((j' 0).val : Int) < 128; omega⟩
  rw [dif_pos hc]
  refine congrArg some (funext fun a => Fin.ext ?_)
  show (scatter_S128_S1_S4_0_n_0_0.start j' idx a + scatter_S128_S1_S4_0_n_0_0.window j' a).toNat = _
  rw [start_bias idx hidx, window_bias]
  match a with
  | ⟨0, _⟩ => show ((0 : Int) + ((j' 0).val : Int)).toNat = (j' 0).val; omega

/-- Four entries written from entry 0 on into a vector of 128: entry `q < 4` of the result is entry `q` of what
    was written. -/
theorem pad_bias (x : S128.Idx → EReal) (idx : IVec S1 32) (hidx : ∀ k, idx k = 0#32) (b : S4.Idx → EReal) (q : Fin 4) :
    Host.scatter scatter_S128_S1_S4_0_n_0_0 (fun _ b => b) x idx b (ix1 ⟨q.val, by omega⟩) = b (ix1 q) := by
  refine Host.scatter_apply_of_hit _ _ (fun _ _ => rfl) x idx b _ (ix1 q) ?_ ?_
  · exact lands_bias idx hidx (ix1 q)
  · intro j' h
    rw [lands_bias idx hidx] at h
    have h' := Option.some.inj h
    have h0 : (j' 0).val = q.val := congrArg (fun f : S128.Idx => (f 0).val) h'
    funext a
    match a with
    | ⟨0, _⟩ => exact Fin.ext h0

end Vector

/-! ## The arrays the host prepares, as the region finds them -/

variable (m : (ℓ : Loc nD τ sig) → Buf (Elt Ideal) ℓ)

/-- The first projection in the narrower format is the first projection. -/
theorem V_main_v0 (c : Dev nD) :
    (V m c main_v0 : S2048x4096.Idx → EReal) = m ((c : Thread nD τ).loc main_arg2) := by
  show StableHlo.after hostOps0 (fun b => m (c, b)) (Proc.devRef .tc main_v0) = _
  after_results
  rfl

/-- The second projection in the narrower format is the second projection. -/
theorem V_main_v1 (c : Dev nD) :
    (V m c main_v1 : S4096x2048.Idx → EReal) = m ((c : Thread nD τ).loc main_arg6) := by
  show StableHlo.after hostOps0 (fun b => m (c, b)) (Proc.devRef .tc main_v1) = _
  after_results
  rfl

/-- Column `q < 4` of the padded last projection is column `q` of the last projection. -/
theorem V_main_v8 (c : Dev nD) (j : Fin 2048) (q : Fin 4) :
    (V m c main_v8 : S2048x128.Idx → EReal) (ix2 j ⟨q.val, by omega⟩)
      = (m ((c : Thread nD τ).loc main_arg8) : S2048x4.Idx → EReal) (ix2 j q) := by
  have e : (V m c main_v8 : S2048x128.Idx → EReal)
      = truncf .bf16 (Host.scatter scatter_S2048x128_S1_S2048x4_01_n_1_0 (fun _ b => b)
          (broadcastInDim S2048x128 ![] bcast_S_S2048x128 (constant (F := Ideal) S_ .f32 0x00000000#32))
          (broadcastInDim S1 ![] bcast_S_S1 (constantI S_ 32 0#32))
          (m ((c : Thread nD τ).loc main_arg8))) bitsLt_bf16_f32 := by
    show StableHlo.after hostOps0 (fun b => m (c, b)) (Proc.devRef .tc main_v8) = _
    after_results
  rw [e]
  refine (truncf_apply (ψ := .bf16) _ bitsLt_bf16_f32 _).trans ?_
  exact pad_cols _ _ (fun _ => rfl) _ j q

/-- Entry `q < 4` of the padded bias is entry `q` of the bias. -/
theorem V_main_v7 (c : Dev nD) (q : Fin 4) :
    (V m c main_v7 : S128.Idx → EReal) (ix1 ⟨q.val, by omega⟩)
      = (m ((c : Thread nD τ).loc main_arg9) : S4.Idx → EReal) (ix1 q) := by
  have e : (V m c main_v7 : S128.Idx → EReal)
      = Host.scatter scatter_S128_S1_S4_0_n_0_0 (fun _ b => b)
          (broadcastInDim S128 ![] bcast_S_S128 (constant (F := Ideal) S_ .f32 0x00000000#32))
          (broadcastInDim S1 ![] bcast_S_S1 (constantI S_ 32 0#32))
          (m ((c : Thread nD τ).loc main_arg9)) := by
    show StableHlo.after hostOps0 (fun b => m (c, b)) (Proc.devRef .tc main_v7) = _
    after_results
  rw [e]
  exact pad_bias _ _ (fun _ => rfl) _ q

/-! ## The operation after the region -/

/-- What the host returns as scores: columns 0 to 3 of the region's 128 score columns. -/
theorem tail_main_v10 (c : Dev nD) :
    (Pipeline.afterTail₀ cfgs (dats m) 0 (V0 m) [hostOps1] c main_v10 : S32768x4.Idx → EReal)
      = extractStridedSlice S32768x4 ![0, 0] ((dats m 0 c).arrAt 11 cfg0.N) slices_S32768x128_S32768x4_0_0 := by
  unfold Pipeline.afterTail₀
  show StableHlo.after hostOps1 _ (Proc.devRef .tc main_v10) = _
  after_results
  exact congrArg (fun A => extractStridedSlice S32768x4 ![0, 0] A slices_S32768x128_S32768x4_0_0)
    (Pipeline.withArrays_arr spec0 launch0.win.arr_inj c _ _ 11)

/-- Keeping the first columns of a matrix: entry `(r, q)` of the result is entry `(r, q)` of the matrix. -/
theorem slice_cols {a n k : ℕ} (A : (⟨2, ![a, n]⟩ : Shape).Idx → EReal)
    (h : (⟨2, ![a, n]⟩ : Shape).Slices ![0, 0] ⟨2, ![a, k]⟩) (r : Fin a) (q : Fin k) (hq : q.val < n) :
    extractStridedSlice ⟨2, ![a, k]⟩ ![0, 0] A h (ix2 r q) = A (ix2 r ⟨q.val, hq⟩) :=
  slice2_axis1_apply 0 A h r q ⟨q.val, hq⟩ (Nat.zero_add _).symm

/-! ## The first class scores of the padded problem are the class scores -/

/-- If the first `k` columns of a projection of `n` columns and the first `k` entries of its bias are a projection of
    `k` columns and its bias, then the first `k` of the `n` score columns are the `k` score columns, row by row. -/
theorem scores_first_cols {a n k : ℕ} (x1 x2 : (⟨2, ![a, 1024]⟩ : Shape).Idx → EReal)
    (W1 : (⟨2, ![2048, 4096]⟩ : Shape).Idx → EReal) (b1 g β : (⟨1, ![4096]⟩ : Shape).Idx → EReal)
    (W2 : (⟨2, ![4096, 2048]⟩ : Shape).Idx → EReal) (b2 : (⟨1, ![2048]⟩ : Shape).Idx → EReal)
    (W3p : (⟨2, ![2048, n]⟩ : Shape).Idx → EReal) (b3p : (⟨1, ![n]⟩ : Shape).Idx → EReal)
    (W3 : (⟨2, ![2048, k]⟩ : Shape).Idx → EReal) (b3 : (⟨1, ![k]⟩ : Shape).Idx → EReal)
    (hkn : k ≤ n)
    (hW : ∀ (j : Fin 2048) (q : Fin k), W3p (ix2 j ⟨q.val, Nat.lt_of_lt_of_le q.isLt hkn⟩) = W3 (ix2 j q))
    (hb : ∀ q : Fin k, b3p (ix1 ⟨q.val, Nat.lt_of_lt_of_le q.isLt hkn⟩) = b3 (ix1 q))
    (h : (⟨2, ![a, n]⟩ : Shape).Slices ![0, 0] ⟨2, ![a, k]⟩) :
    extractStridedSlice ⟨2, ![a, k]⟩ ![0, 0] (Cert.Spec.scores x1 x2 W1 b1 g β W2 b2 W3p b3p) h
      = Cert.Spec.scores x1 x2 W1 b1 g β W2 b2 W3 b3 := by
  funext i
  obtain ⟨r, q, rfl⟩ : ∃ (r : Fin a) (q : Fin k), i = ix2 r q := ⟨i 0, i 1, eq_ix2 i⟩
  refine (slice_cols _ h r q (Nat.lt_of_lt_of_le q.isLt hkn)).trans ?_
  exact Cert.Spec.cls_congr (Cert.Spec.joined x1 x2 r) W1 b1 g β W2 b2 W3p b3p W3 b3
    ⟨q.val, Nat.lt_of_lt_of_le q.isLt hkn⟩ q (fun j => hW j q) (hb q)

end Cert.KernelHost

end
-- ==== Proof.KernelValue.lean ====
/-
  The idealized kernel program's run, with both results named.

  After the host's preparation (the two weight matrices in the narrower format, which at the exact values are the
  matrices themselves; the last projection and its bias widened from 4 to 128 columns by zeros), the region leaves
  the gates array at the specification's gates of the arguments, and its 128-column scores array at the
  specification's scores for the widened projection.  The host then keeps the first four score columns; a score column
  depends on its own column of the projection and its own bias entry only, and the first four columns of the widened
  projection and bias are the projection and the bias, so what the host returns is the specification's four class
  scores.  The arguments end as they were.
-/
import proofs.«106940_j13400297964136_2_alg».proof.Proof.Blocks
import proofs.«106940_j13400297964136_2_alg».proof.Proof.HostSide

noncomputable section

namespace Cert.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The gates array after the run: the specification's gates of the arguments. -/
theorem gates_after (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v9_0) = Cert.Spec.gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((h c).1 10).trans ((Cert.KernelBlocks.final_gates m c).trans ?_)
  rw [V_main_arg0 m c, V_main_arg1 m c, Cert.KernelHost.V_main_v0 m c, V_main_arg3 m c, V_main_arg4 m c, V_main_arg5 m c,
    Cert.KernelHost.V_main_v1 m c, V_main_arg7 m c]

/-- The scores the host returns after the run: the specification's four class scores of the arguments. -/
theorem scores_after (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v10) = Cert.Spec.scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((h c).2 main_v10 (Pipeline.mem_restRefs_of main_v10 (by decide) (by decide))).trans ?_
  refine (Cert.KernelHost.tail_main_v10 m c).trans ?_
  rw [Cert.KernelBlocks.final_scores m c, V_main_arg0 m c, V_main_arg1 m c, Cert.KernelHost.V_main_v0 m c, V_main_arg3 m c,
    V_main_arg4 m c, V_main_arg5 m c, Cert.KernelHost.V_main_v1 m c, V_main_arg7 m c]
  exact Cert.KernelHost.scores_first_cols _ _ _ _ _ _ _ _ (V m c main_v8) (V m c main_v7)
    (m ((c : Thread nD τ).loc main_arg8)) (m ((c : Thread nD τ).loc main_arg9)) (by decide)
    (fun j q => Cert.KernelHost.V_main_v8 m c j q) (fun q => Cert.KernelHost.V_main_v7 m c q) slices_S32768x128_S32768x4_0_0

/-- The run: every weakly fair execution terminates with the returned scores and the gates at the specification's
    values of the arguments, and the arguments unchanged. -/
theorem run : θ_run defs (onTc (τ := τ) (main (F := Ideal))) ⟨m, fun _ => 0, ρ⟩ (fun r => ∀ c : Dev nD,
      r.2.mem ((c : Thread nD τ).loc main_v10) = Cert.Spec.scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v9_0) = Cert.Spec.gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun r h c => ⟨scores_after m r h c, gates_after m r h c,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelValue

end
-- ==== Proof.lean ====
/-
  A gated classifier on 32768 input rows: the kernel and its reference compute the same extended reals.

  Each input row X (the rows of the two inputs side by side, 2048 entries) is projected to a hidden row of 4096
  entries, X · W1 + b1; the hidden row is normalized (its mean subtracted, divided by the square root of its variance
  plus ε, scaled by g and shifted by β) and cut off below at zero; the result is projected back, · W2 + b2, and the
  logistic function of that is the row's gate; the class scores are the gated row (X ⊙ gate) against W3, plus b3.

  The kernel treats 128 rows per grid point with the weight arrays whole, and pads the last projection and its bias
  from 4 to 128 columns with zeros before the region and keeps the first 4 score columns after it; the reference
  treats all rows at once.  At the exact values the two differ only in form: a change of float format is the identity;
  a product into a zero accumulator and a sum started from zero are plain sums; the kernel multiplies the centred
  entry by (rstd · g) where the reference multiplies by rstd and then by g (the product of extended reals is
  associative); the kernel's logistic operation is by definition 1 / (1 + e^(−x)), which the reference spells out; a
  score column depends on its own column of the projection and its own bias entry only, so the zero columns never
  enter the four scores that are returned; and every stage treats the rows alike and apart, so a block of rows of
  the result is the same function of the same rows of the input.  No law used needs the inputs to be finite.

  Both programs are shown equal to one row-wise specification (Proof/Spec.lean): the reference stage by stage
  (Proof/RefSpec.lean), the kernel's body row by row of a block (Proof/RowStages.lean, RowNorm.lean, RowGate.lean,
  KernelRow.lean), the blocks assembled into the result arrays (Proof/Blocks.lean), the host's preparation and final
  slice read at coordinates (Proof/HostSide.lean), and the kernel program's run with both results named
  (Proof/KernelValue.lean).  The kernel's idealization rewrote nothing, so the idealized kernel is the kernel's own
  text read at the exact values.
-/
import proofs.«106940_j13400297964136_2_alg».proof.Defs
import proofs.«106940_j13400297964136_2_alg».proof.Proof.Gen.Kernel
import proofs.«106940_j13400297964136_2_alg».proof.Proof.Gen.Kernel.Skeleton
import proofs.«106940_j13400297964136_2_alg».proof.Proof.Gen.Kernel.Launch
import proofs.«106940_j13400297964136_2_alg».proof.Proof.Gen.Kernel.Points
import proofs.«106940_j13400297964136_2_alg».proof.Proof.Gen.Kernel.Frame
import proofs.«106940_j13400297964136_2_alg».proof.Proof.Gen.KernelIdeal
import proofs.«106940_j13400297964136_2_alg».proof.Proof.Gen.KernelIdeal.Skeleton
import proofs.«106940_j13400297964136_2_alg».proof.Proof.Gen.KernelIdeal.Launch
import proofs.«106940_j13400297964136_2_alg».proof.Proof.Gen.KernelIdeal.Points
import proofs.«106940_j13400297964136_2_alg».proof.Proof.Gen.KernelIdeal.Frame
import proofs.«106940_j13400297964136_2_alg».proof.Proof.Gen.ReferenceIdeal
import proofs.«106940_j13400297964136_2_alg».proof.Proof.Gen.Pre_finite_inputs
import proofs.«106940_j13400297964136_2_alg».proof.Proof.Gen.ReferenceIdeal.Run
import proofs.«106940_j13400297964136_2_alg».proof.Proof.Gen.ReferenceIdeal.Read
import proofs.«106940_j13400297964136_2_alg».proof.Proof.Spec
import proofs.«106940_j13400297964136_2_alg».proof.Proof.RefSpec
import proofs.«106940_j13400297964136_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the exact values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories that agree on the arguments, both programs end with the class scores and the gates at the
    specification's values of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v44_eq, Cert.RefSpec.ref_scores]
    obtain ⟨h0, h1, h2, h3, h4, h5, h6, h7, h8, h9⟩ := hagree c
    rw [h0, h1, h2, h3, h4, h5, h6, h7, h8, h9]
  · rw [Cert.ReferenceIdeal.Read.val_main_v39_eq, Cert.RefSpec.ref_gates]
    obtain ⟨h0, h1, h2, h3, h4, h5, h6, h7, h8, h9⟩ := hagree c
    rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
